-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288 : Shape := ⟨1, ![12288]⟩
abbrev S_ : Shape := ⟨0, ![]⟩

class Facts : Prop where
  bcast_S_S12288 : S_.BroadcastsInDim S12288 (![] : Fin 0 → Fin S12288.rank)
  reducesTo_S12288_S_d0 : S12288.ReducesTo [0] S_
  h_S_ : 0 < S_.numel

variable [Facts]

def fn {F : FTy → Type} [FloatOps F] (main_arg0 : FVec F S12288 .f32) : IVec S_ 1 :=
  let main_v0 : FVec F S12288 .f32 := Host.absf main_arg0
  let main_cst : FVec F S_ .f32 := constant S_ .f32 0x7F800000#32
  let main_v1 : FVec F S12288 .f32 := broadcastInDim S12288 ![] bcast_S_S12288 main_cst
  let main_v2 : IVec S12288 1 := cmpf .olt main_v0 main_v1
  let main_c : IVec S_ 1 := constantI S_ 1 1#1
  let main_v3 : IVec S_ 1 := (fun x v => Host.reduce IntOp.andi x v reducesTo_S12288_S_d0 h_S_) main_v2 main_c
  main_v3
-- ==== Kernel.lean ====
abbrev S12288 : Shape := ⟨1, ![12288]⟩
abbrev S4096x3 : Shape := ⟨2, ![4096, 3]⟩
abbrev S1x1 : Shape := ⟨2, ![1, 1]⟩
abbrev S512x3 : Shape := ⟨2, ![512, 3]⟩
abbrev S512 : Shape := ⟨1, ![512]⟩
abbrev S512x1 : Shape := ⟨2, ![512, 1]⟩
abbrev S3x512 : Shape := ⟨2, ![3, 512]⟩
abbrev S512x512 : Shape := ⟨2, ![512, 512]⟩
abbrev S1x512 : Shape := ⟨2, ![1, 512]⟩
abbrev S1x512x512 : Shape := ⟨3, ![1, 512, 512]⟩
abbrev S1 : Shape := ⟨1, ![1]⟩
abbrev S1x1x1 : Shape := ⟨3, ![1, 1, 1]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S12288, .f32⟩
  | .hbm, ⟨1, _⟩ => ⟨S4096x3, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x3, .f32⟩
  | .local _ .vmem, ⟨1, _⟩ => ⟨S512x3, .f32⟩
  | .local _ .vmem, ⟨2, _⟩ => ⟨S512x3, .f32⟩
  | .local _ .vmem, ⟨3, _⟩ => ⟨S512x3, .f32⟩
  | .local _ .vmem, ⟨4, _⟩ => ⟨S1x1, .f32⟩
  | .local _ .vmem, ⟨5, _⟩ => ⟨S1x1, .f32⟩
  | _, _ => ⟨S12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg0 : BitVec 32 := BitVec.ofNat 32 (i 0).val
  let c7_i32 : BitVec 32 := 7#32
  let v8 : BitVec 1 := Scalar.cmpi .eq arg0 c7_i32
  let arg1 : BitVec 32 := BitVec.ofNat 32 (i 1).val
  let c7_i32_3 : BitVec 32 := 7#32
  let v9 : BitVec 1 := Scalar.cmpi .eq arg1 c7_i32_3
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  shapeCasts_S12288_S4096x3 : S12288.ShapeCasts S4096x3
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x3_S512x3_0_0 : ∀ a, (![0, 0] : Fin 2 → Nat) a + S512x3.size a ≤ S512x3.size a
  h_S512x3 : 0 < S512x3.numel
  shapeCasts_S512x3_S512x3 : S512x3.ShapeCasts S512x3
  reduces_S512x3_S512 : S512x3.Reduces [1] S512
  shapeCasts_S512_S512x1 : S512.ShapeCasts S512x1
  transposes_S512x3_p1_0_S3x512 : S512x3.Transposes [1, 0] S3x512
  transposes_S512x1_p1_0_S1x512 : S512x1.Transposes [1, 0] S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  dot_S512x3_S3x512_S512x512_1_0_0_1_n_n_wf : DotDims.WF S512x3 S3x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S4096x3.size a
  hwx0_0 : ∀ i : grid0.Coords, EltTy.bits .f32 = 32 ∨ (Rect.block (s := S4096x3) S512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3.size a ≤ S4096x3.size a
  hwx0_1 : ∀ i : grid0.Coords, EltTy.bits .f32 = 32 ∨ (Rect.block (s := S4096x3) S512x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S512x3_S3x512_S512x512_1_0_0_1_n_n : DotDims S512x3 S3x512 S512x512 where
  lhsContracting := [1]
  rhsContracting := [0]
  lhsNonContracting := [0]
  rhsNonContracting := [1]
  lhsBatch := []
  rhsBatch := []
  wf := dot_S512x3_S3x512_S512x512_1_0_0_1_n_n_wf

abbrev win0_0 : Pipeline.Window sig grid0 :=
  Pipeline.Window.ofSpec (Memref.whole main_v0) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S12288 : Shape := ⟨1, ![12288]⟩
abbrev S4096x3 : Shape := ⟨2, ![4096, 3]⟩
abbrev S4096x1x3 : Shape := ⟨3, ![4096, 1, 3]⟩
abbrev S1x4096x3 : Shape := ⟨3, ![1, 4096, 3]⟩
abbrev S4096x4096x3 : Shape := ⟨3, ![4096, 4096, 3]⟩
abbrev S_ : Shape := ⟨0, ![]⟩
abbrev S4096x4096 : Shape := ⟨2, ![4096, 4096]⟩

abbrev nBuf : Space → Nat
  | .hbm => 59
  | .vmem => 0
  | .smem => 0
  | _ => 0

abbrev bufTy : (tb : Table) → Fin (tcTables nBuf tb) → BufTy
  | .hbm, ⟨0, _⟩ => ⟨S12288, .f32⟩
  | .hbm, ⟨1, _⟩ => ⟨S4096x3, .f32⟩
  | .hbm, ⟨2, _⟩ => ⟨S4096x1x3, .f32⟩
  | .hbm, ⟨3, _⟩ => ⟨S1x4096x3, .f32⟩
  | .hbm, ⟨4, _⟩ => ⟨S4096x4096x3, .f32⟩
  | .hbm, ⟨5, _⟩ => ⟨S4096x4096x3, .f32⟩
  | .hbm, ⟨6, _⟩ => ⟨S4096x4096x3, .f32⟩
  | .hbm, ⟨7, _⟩ => ⟨S4096x4096x3, .f32⟩
  | .hbm, ⟨8, _⟩ => ⟨S_, .f32⟩
  | .hbm, ⟨9, _⟩ => ⟨S4096x4096, .f32⟩
  | .hbm, ⟨10, _⟩ => ⟨S_, .i1⟩
  | .hbm, ⟨11, _⟩ => ⟨S4096x4096, .i1⟩
  | .hbm, ⟨12, _⟩ => ⟨S4096x4096, .i32⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S_, .i1⟩
  | .hbm, ⟨19, _⟩ => ⟨S4096x4096, .i1⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_0 : Ref sig .tc := ⟨.hbm, 18, rfl⟩
abbrev main_call0_v5 : Ref sig .tc := ⟨.hbm, 19, rfl⟩
abbrev main_v9 : Ref sig .tc := ⟨.hbm, 20, rfl⟩
abbrev main_cst_0 : Ref sig .tc := ⟨.hbm, 21, rfl⟩
abbrev main_call1_v0 : Ref sig .tc := ⟨.hbm, 22, rfl⟩
abbrev main_call1_v1 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_call2_cst : Ref sig .tc := ⟨.hbm, 29, rfl⟩
abbrev main_call2_v0 : Ref sig .tc := ⟨.hbm, 30, rfl⟩
abbrev main_v14 : Ref sig .tc := ⟨.hbm, 31, rfl⟩
abbrev main_cst_2 : Ref sig .tc := ⟨.hbm, 32, rfl⟩
abbrev main_call3_v0 : Ref sig .tc := ⟨.hbm, 33, rfl⟩
abbrev main_call3_v1 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_call4_cst : Ref sig .tc := ⟨.hbm, 39, rfl⟩
abbrev main_call4_v0 : Ref sig .tc := ⟨.hbm, 40, rfl⟩
abbrev main_v18 : Ref sig .tc := ⟨.hbm, 41, rfl⟩
abbrev main_cst_4 : Ref sig .tc := ⟨.hbm, 42, rfl⟩
abbrev main_call5_v0 : Ref sig .tc := ⟨.hbm, 43, rfl⟩
abbrev main_call5_v1 : Ref sig .tc := ⟨.hbm, 44, rfl⟩
abbrev main_v19 : Ref sig .tc := ⟨.hbm, 45, rfl⟩
abbrev main_cst_5 : Ref sig .tc := ⟨.hbm, 46, rfl⟩
abbrev main_v20 : Ref sig .tc := ⟨.hbm, 47, rfl⟩
abbrev main_cst_6 : Ref sig .tc := ⟨.hbm, 48, rfl⟩
abbrev main_v21 : Ref sig .tc := ⟨.hbm, 49, rfl⟩
abbrev main_cst_7 : Ref sig .tc := ⟨.hbm, 50, rfl⟩
abbrev main_v22 : Ref sig .tc := ⟨.hbm, 51, rfl⟩
abbrev main_cst_8 : Ref sig .tc := ⟨.hbm, 52, rfl⟩
abbrev main_v23 : Ref sig .tc := ⟨.hbm, 53, rfl⟩
abbrev main_cst_9 : Ref sig .tc := ⟨.hbm, 54, rfl⟩
abbrev main_v24 : Ref sig .tc := ⟨.hbm, 55, rfl⟩
abbrev main_cst_10 : Ref sig .tc := ⟨.hbm, 56, rfl⟩
abbrev main_v25 : Ref sig .tc := ⟨.hbm, 57, rfl⟩
abbrev main_v26 : Ref sig .tc := ⟨.hbm, 58, rfl⟩

abbrev nD : Nat := 1
abbrev τ : Topo := Topo.v7x

variable {F : FTy → Type} [FloatOps F]

class Facts₀ : Prop where
  shapeCasts_S12288_S4096x3 : S12288.ShapeCasts S4096x3
  bcast_S4096x3_S4096x1x3_0_2 : S4096x3.BroadcastsInDim S4096x1x3 (![0, 2] : Fin 2 → Fin S4096x1x3.rank)
  bcast_S4096x3_S1x4096x3_1_2 : S4096x3.BroadcastsInDim S1x4096x3 (![1, 2] : Fin 2 → Fin S1x4096x3.rank)
  bcast_S4096x1x3_S4096x4096x3_0_1_2 : S4096x1x3.BroadcastsInDim S4096x4096x3 (![0, 1, 2] : Fin 3 → Fin S4096x4096x3.rank)
  bcast_S1x4096x3_S4096x4096x3_0_1_2 : S1x4096x3.BroadcastsInDim S4096x4096x3 (![0, 1, 2] : Fin 3 → Fin S4096x4096x3.rank)
  reducesTo_S4096x4096x3_S4096x4096_d2 : S4096x4096x3.ReducesTo [2] S4096x4096
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts₀]

class Facts : Prop extends Facts₀ where

variable [Facts]
-- ==== Proof.BodyBits.lean ====
/-
  The kernel body of the program as printed, run symbolically at one grid point, in each of the four cases its three
  conditionals meet on the 8 × 8 grid.
-/
import proofs.«129650_j84731114815830_1_alg».proof.Proof.Gen.Kernel.Launch
import proofs.«129650_j84731114815830_1_alg».proof.Proof.Gen.Kernel.Skeleton
import proofs.«129650_j84731114815830_1_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three branch conditions, over the grid coordinates -/

/-- "This is the first point": both coordinates are zero. -/
abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- "The tile meets the upper triangle": the row coordinate is at most the column coordinate. -/
abbrev cond2 (i : grid0.Coords) : Prop :=
  Scalar.cmpi .ne (Scalar.extui (Scalar.cmpi .sle (BitVec.ofNat 32 (i 0).val) (BitVec.ofNat 32 (i 1).val))) 0#32 = 1#1
/-- "This is the last point": both coordinates are seven. -/
abbrev cond3 (i : grid0.Coords) : Prop := k0_cond3 i = 1#1

/-- Point `t` of the 8 × 8 grid has coordinates (t / 8, t % 8); the three conditions in closed form. -/
theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val / 8 ≤ t.val % 8 :=
  (by decide +kernel : ∀ t : Fin grid0.N, cond2 (grid0.coords t) ↔ t.val / 8 ≤ t.val % 8)
theorem hcond3 : ∀ t : Fin cfg0.N, cond3 (grid0.coords t) ↔ t.val = 63 :=
  (by decide +kernel : ∀ t : Fin grid0.N, cond3 (grid0.coords t) ↔ t.val = 63)
/-- The coordinates themselves. -/
theorem hcoords : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-! ## A store of a whole buffer, read back -/

/-- The offset (0, 0) is the zero offset. -/
theorem hz : (![0, 0] : Fin 2 → Nat) = fun _ => 0 := by funext a; fin_cases a <;> rfl

/-- After a sequence of stores whose LAST is through the rectangle that is the whole shape, a buffer reads as that
    store's vector, whatever it held before and whatever the earlier stores were. -/
theorem read_store_last {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

/-! ## The body, case by case

On whole memrefs — the two input blocks at `x0`, `x1`, the result's one-element buffer at `xi2`, the one-element
accumulator at `xs` — the body runs to the continuation with the inputs as they were and:
the accumulator at the tile's sum added to zero (first point), to `xs` (a later point meeting the upper triangle), or
untouched (a point below the diagonal); the result's buffer untouched, except at the last point, where it receives the
accumulator. -/

set_option maxHeartbeats 1000000 in
/-- The first point (0, 0): the accumulator is zeroed, then the tile's sum is added. -/
theorem run_first (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S1x1 .f32) (harg4 : arg4.IsWhole) (arg5 : Memref sig .tc .vmem S1x1 .f32) (harg5 : arg5.IsWhole)
    (hc1 : cond1 i) (hc2 : cond2 i) (hc3 : ¬cond3 i)
    (x0 x1 : Vec F S512x3 .f32) (xi2 xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs
        ∗ (iprop(owns (c : Thread nD τ) arg2 fullShare x0 ∗ owns (c : Thread nD τ) arg3 fullShare x1 ∗ owns (c : Thread nD τ) arg4 fullShare xi2 ∗ owns (c : Thread nD τ) arg5 fullShare (k0_pay2 (k0_pay3 (BitVec.ofNat 32 (i 0).val) (BitVec.ofNat 32 (i 1).val) x0 x1) (k0_pay1 (F := F)))) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  simp only [k0_part1_eq_skeleton]
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    first
      | exact harg4.read_unread _
      | (sl_unfold_run_names
         rw [read_store_last (S := S1x1) _ _ hz]
         simp only [View.readAt_eq_ld, harg2.read_unread, harg3.read_unread, harg4.read_unread, harg5.read_unread, View.ld_unit_zero (S := S1x1) hz, View.ld_unit_zero (S := S512x3) hz, View.readCov_unit_zero (S := S1x1) _ hz])
  · iexists _; isplitr; swap; · iexact HS
    ipureintro
    first
      | exact harg5.read_unread _
      | (sl_unfold_run_names
         rw [read_store_last (S := S1x1) _ _ hz]
         simp only [View.readAt_eq_ld, harg2.read_unread, harg3.read_unread, harg4.read_unread, harg5.read_unread, View.ld_unit_zero (S := S1x1) hz, View.ld_unit_zero (S := S512x3) hz, View.readCov_unit_zero (S := S1x1) _ hz])

set_option maxHeartbeats 1000000 in
/-- A later point with I ≤ J that is not the last: the tile's sum is added to the accumulator. -/
theorem run_upper (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S1x1 .f32) (harg4 : arg4.IsWhole) (arg5 : Memref sig .tc .vmem S1x1 .f32) (harg5 : arg5.IsWhole)
    (hc1 : ¬cond1 i) (hc2 : cond2 i) (hc3 : ¬cond3 i)
    (x0 x1 : Vec F S512x3 .f32) (xi2 xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs
        ∗ (iprop(owns (c : Thread nD τ) arg2 fullShare x0 ∗ owns (c : Thread nD τ) arg3 fullShare x1 ∗ owns (c : Thread nD τ) arg4 fullShare xi2 ∗ owns (c : Thread nD τ) arg5 fullShare (k0_pay2 (k0_pay3 (BitVec.ofNat 32 (i 0).val) (BitVec.ofNat 32 (i 1).val) x0 x1) xs)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  simp only [k0_part1_eq_skeleton]
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    first
      | exact harg4.read_unread _
      | (sl_unfold_run_names
         rw [read_store_last (S := S1x1) _ _ hz]
         simp only [View.readAt_eq_ld, harg2.read_unread, harg3.read_unread, harg4.read_unread, harg5.read_unread, View.ld_unit_zero (S := S1x1) hz, View.ld_unit_zero (S := S512x3) hz, View.readCov_unit_zero (S := S1x1) _ hz])
  · iexists _; isplitr; swap; · iexact HS
    ipureintro
    first
      | exact harg5.read_unread _
      | (sl_unfold_run_names
         rw [read_store_last (S := S1x1) _ _ hz]
         simp only [View.readAt_eq_ld, harg2.read_unread, harg3.read_unread, harg4.read_unread, harg5.read_unread, View.ld_unit_zero (S := S1x1) hz, View.ld_unit_zero (S := S512x3) hz, View.readCov_unit_zero (S := S1x1) _ hz])

set_option maxHeartbeats 1000000 in
/-- A point with I > J: nothing is stored. -/
theorem run_lower (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S1x1 .f32) (harg4 : arg4.IsWhole) (arg5 : Memref sig .tc .vmem S1x1 .f32) (harg5 : arg5.IsWhole)
    (hc1 : ¬cond1 i) (hc2 : ¬cond2 i) (hc3 : ¬cond3 i)
    (x0 x1 : Vec F S512x3 .f32) (xi2 xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs
        ∗ (iprop(owns (c : Thread nD τ) arg2 fullShare x0 ∗ owns (c : Thread nD τ) arg3 fullShare x1 ∗ owns (c : Thread nD τ) arg4 fullShare xi2 ∗ owns (c : Thread nD τ) arg5 fullShare xs) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  simp only [k0_part1_eq_skeleton]
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    first
      | exact harg4.read_unread _
      | (sl_unfold_run_names
         rw [read_store_last (S := S1x1) _ _ hz]
         simp only [View.readAt_eq_ld, harg2.read_unread, harg3.read_unread, harg4.read_unread, harg5.read_unread, View.ld_unit_zero (S := S1x1) hz, View.ld_unit_zero (S := S512x3) hz, View.readCov_unit_zero (S := S1x1) _ hz])
  · iexists _; isplitr; swap; · iexact HS
    ipureintro
    first
      | exact harg5.read_unread _
      | (sl_unfold_run_names
         rw [read_store_last (S := S1x1) _ _ hz]
         simp only [View.readAt_eq_ld, harg2.read_unread, harg3.read_unread, harg4.read_unread, harg5.read_unread, View.ld_unit_zero (S := S1x1) hz, View.ld_unit_zero (S := S512x3) hz, View.readCov_unit_zero (S := S1x1) _ hz])

set_option maxHeartbeats 1000000 in
/-- The last point (7, 7): the tile's sum is added, and the accumulator is copied to the result's buffer. -/
theorem run_last (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S1x1 .f32) (harg4 : arg4.IsWhole) (arg5 : Memref sig .tc .vmem S1x1 .f32) (harg5 : arg5.IsWhole)
    (hc1 : ¬cond1 i) (hc2 : cond2 i) (hc3 : cond3 i)
    (x0 x1 : Vec F S512x3 .f32) (xi2 xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs
        ∗ (iprop(owns (c : Thread nD τ) arg2 fullShare x0 ∗ owns (c : Thread nD τ) arg3 fullShare x1 ∗ owns (c : Thread nD τ) arg4 fullShare (k0_pay2 (k0_pay3 (BitVec.ofNat 32 (i 0).val) (BitVec.ofNat 32 (i 1).val) x0 x1) xs) ∗ owns (c : Thread nD τ) arg5 fullShare (k0_pay2 (k0_pay3 (BitVec.ofNat 32 (i 0).val) (BitVec.ofNat 32 (i 1).val) x0 x1) xs)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  simp only [k0_part1_eq_skeleton]
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    first
      | exact harg4.read_unread _
      | (sl_unfold_run_names
         rw [read_store_last (S := S1x1) _ _ hz]
         simp only [View.readAt_eq_ld, harg2.read_unread, harg3.read_unread, harg4.read_unread, harg5.read_unread, View.ld_unit_zero (S := S1x1) hz, View.ld_unit_zero (S := S512x3) hz, View.readCov_unit_zero (S := S1x1) _ hz])
  · iexists _; isplitr; swap; · iexact HS
    ipureintro
    first
      | exact harg5.read_unread _
      | (sl_unfold_run_names
         rw [read_store_last (S := S1x1) _ _ hz]
         simp only [View.readAt_eq_ld, harg2.read_unread, harg3.read_unread, harg4.read_unread, harg5.read_unread, View.ld_unit_zero (S := S1x1) hz, View.ld_unit_zero (S := S512x3) hz, View.readCov_unit_zero (S := S1x1) _ hz])

end Cert.Kernel.Body

end
-- ==== Proof.TilesBits.lean ====
/-
  The kernel's accumulation, point by point, as a pure recursion over the generated payload names.

  The grid is 8 × 8; point n has coordinates (I, J) = (n / 8, n % 8) and sees rows 512·I … 512·I+511 of the array as
  its first block and rows 512·J … 512·J+511 as its second. The one-element accumulator is set to zero at the first
  point, and at every point with I ≤ J the tile's sum is added to it; at the last point it is copied to the result.
  `accAt x n` is the accumulator after the first `n` points.
-/
import proofs.«129650_j84731114815830_1_alg».proof.Proof.Gen.Kernel.Skeleton
import Idealize.ShloMosaic.Lib.ValueIdx

noncomputable section

namespace Cert.Kernel.Tiles

open Idealize.ShloMosaic Idealize.ShloMosaic.ValueIdx Cert.Kernel Cert.Kernel.Gen

variable {F : FTy → Type} [FloatOps F]

/-- Rows 512·I … 512·I+511 of a [4096, 3] array, as a [512, 3] block. -/
def rowsBlock (x : Vec F S4096x3 .f32) (I : Fin 8) : Vec F S512x3 .f32 :=
  fun y => x (ix2 (n0 := 4096) (n1 := 3)
    ⟨512 * I.val + (y 0).val, by have := idx2_lt0 y; have := I.isLt; omega⟩ (y 1))

/-- The array row that row `a` of block `I` is. -/
def rowOf (I : Fin 8) (a : Fin 512) : Fin 4096 := ⟨512 * I.val + a.val, by have := I.isLt; have := a.isLt; omega⟩

/-- What the tile at grid coordinates (I, J) adds: the accumulator `acc` plus the sum of the tile's masked charges. -/
def tileStep (x : Vec F S4096x3 .f32) (I J : Fin 8) (acc : Vec F S1x1 .f32) : FVec F S1x1 .f32 :=
  k0_pay2 (k0_pay3 (BitVec.ofNat 32 I.val) (BitVec.ofNat 32 J.val) (rowsBlock x I) (rowsBlock x J)) acc

/-- The accumulator after the first `n` grid points: zero before any, and each point with I ≤ J adds its tile. -/
def accAt (x : Vec F S4096x3 .f32) : Nat → FVec F S1x1 .f32
  | 0 => k0_pay1
  | n + 1 =>
    if h : n / 8 ≤ n % 8 ∧ n / 8 < 8 then tileStep x ⟨n / 8, h.2⟩ ⟨n % 8, Nat.mod_lt _ (by decide)⟩ (accAt x n)
    else accAt x n

end Cert.Kernel.Tiles

end
-- ==== Proof.PointsBits.lean ====
/-
  The kernel's region as printed, point by point: what the two input windows and the result's window hold at each of
  the 64 grid points, the accumulator carried from point to point, and the body's obligation at every point.
-/
import proofs.«129650_j84731114815830_1_alg».proof.Proof.BodyBits
import proofs.«129650_j84731114815830_1_alg».proof.Proof.TilesBits

set_option maxRecDepth 16384

noncomputable section

namespace Cert.Kernel.Points

open Cert.Kernel Cert.Kernel.Gen Cert.Kernel.Body Cert.Kernel.Tiles
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region finds -/

/-- Core `c`'s buffers when the region is entered: the launch contents after the one host operation before it (the
    reshape of the flat argument into 4096 rows of 3). -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- The [4096, 3] array of points, as both input windows find it. -/
abbrev pts (c : Dev nD) : Vec F S4096x3 .f32 := V m c main_v0

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first window's block index at point `t` is (t / 8, 0), the second's (t % 8, 0). -/
theorem index0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem index1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)

theorem lt64 (t : Fin cfg0.N) : t.val < 64 := lt_of_lt_of_eq t.isLt (show cfg0.N = 64 from N_0)

/-- The first window's block at point `t` is rows 512·(t/8) … of the array; -/
theorem iblk0_eq (c : Dev nD) (t : Fin cfg0.N) :
    (iblk m c 0 t : Vec F S512x3 .f32) = rowsBlock (pts m c) ⟨t.val / 8, by have := lt64 t; omega⟩ := by
  funext y
  unfold iblk rowsBlock
  show V m c main_v0 (((cfg0.win 0).blk t).view.emb y) = V m c main_v0 _
  refine congrArg _ (funext fun a => Fin.ext ?_)
  match a with
  | ⟨0, _⟩ => show win0_0.index t (0 : Fin 2) * 512 + 1 * (y 0).val = 512 * (t.val / 8) + (y 0).val; rw [(index0 t).1]; omega
  | ⟨1, _⟩ => show win0_0.index t (1 : Fin 2) * 3 + 1 * (y 1).val = (y 1).val; rw [(index0 t).2]; omega

/-- the second window's is rows 512·(t%8) … . -/
theorem iblk1_eq (c : Dev nD) (t : Fin cfg0.N) :
    (iblk m c 1 t : Vec F S512x3 .f32) = rowsBlock (pts m c) ⟨t.val % 8, Nat.mod_lt _ (by decide)⟩ := by
  funext y
  unfold iblk rowsBlock
  show V m c main_v0 (((cfg0.win 1).blk t).view.emb y) = V m c main_v0 _
  refine congrArg _ (funext fun a => Fin.ext ?_)
  match a with
  | ⟨0, _⟩ => show win0_1.index t (0 : Fin 2) * 512 + 1 * (y 0).val = 512 * (t.val % 8) + (y 0).val; rw [(index1 t).1]; omega
  | ⟨1, _⟩ => show win0_1.index t (1 : Fin 2) * 3 + 1 * (y 1).val = (y 1).val; rw [(index1 t).2]; omega

/-! ## The accumulator, one point further -/

/-- At a point with I ≤ J the accumulator gains the tile's sum, the tile being that of the point's two blocks; -/
theorem accAt_upper (c : Dev nD) (t : Fin cfg0.N) (h : t.val / 8 ≤ t.val % 8) :
    accAt (pts m c) (t.val + 1)
      = k0_pay2 (k0_pay3 (BitVec.ofNat 32 ((grid0.coords t) 0).val) (BitVec.ofNat 32 ((grid0.coords t) 1).val) (iblk m c 0 t) (iblk m c 1 t)) (accAt (pts m c) t.val) := by
  have h8 : t.val / 8 < 8 := by have := lt64 t; omega
  rw [iblk0_eq, iblk1_eq, (hcoords t).1, (hcoords t).2]
  show (if h : t.val / 8 ≤ t.val % 8 ∧ t.val / 8 < 8 then _ else _) = _
  rw [dif_pos ⟨h, h8⟩]; rfl

/-- at a point with I > J it is unchanged. -/
theorem accAt_lower (c : Dev nD) (t : Fin cfg0.N) (h : ¬ t.val / 8 ≤ t.val % 8) :
    accAt (pts m c) (t.val + 1) = accAt (pts m c) t.val := by
  show (if h : t.val / 8 ≤ t.val % 8 ∧ t.val / 8 < 8 then _ else _) = _
  rw [dif_neg fun h' => h h'.1]

/-! ## The proof data -/

/-- The one-element accumulator, a scoped buffer of the kernel's own. -/
abbrev scM : Memref sig .tc .vmem S1x1 .f32 := Memref.whole cc0_scratch0

/-- The region's invariant before point `n`: the accumulator at anything before the first point, afterwards at the sum
    of the tiles met so far. -/
def PhiS (c : Dev nD) : ℕ → sProp 𝕄
  | 0 => iprop(∃ d, owns (c : Thread nD τ) scM fullShare d)
  | n + 1 => owns (c : Thread nD τ) scM fullShare (accAt (pts m c) (n + 1))

/-- The proof data on core `c`. Each input's staging buffer holds its block and is left as found; the result's
    one-element buffer receives the accumulator at the last point (at the other points the body does not touch it);
    the two input windows read ONE array, so each holds one half of it; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt (pts m c) (t.val + 1)
  Φ t := PhiS m c t.val
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt (pts m c) (t.val + 1) := by dsimp only [dats]
theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := rfl

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-! ## Where the result's window is idle -/

theorem live0 : ∀ t : Fin cfg0.N, cfg0.idle 0 (grid0.coords t) = false := fun _ => rfl
theorem live1 : ∀ t : Fin cfg0.N, cfg0.idle 1 (grid0.coords t) = false := fun _ => rfl
/-- The body stores into the result's buffer at the last point only, and only there is it written back. -/
theorem idle2 : ∀ t : Fin cfg0.N, t.val ≠ 63 → cfg0.idle 2 (grid0.coords t) = true :=
  (by decide +kernel : ∀ t : Fin grid0.N, t.val ≠ 63 → idle0 2 (grid0.coords t) = true)
theorem live2 : ∀ t : Fin cfg0.N, t.val = 63 → cfg0.idle 2 (grid0.coords t) = false :=
  (by decide +kernel : ∀ t : Fin grid0.N, t.val = 63 → idle0 2 (grid0.coords t) = false)
theorem noFlush2 (t : Fin cfg0.N) (h : t.val ≠ 63) : (cfg0.win 2).flush t = false := by
  have := lt64 t
  cases hf : (cfg0.win 2).flush t
  · rfl
  · exact absurd ((flush0_2 t).mp hf) (by omega)

/-! ## The body obligation -/

abbrev ms0 (t : Fin cfg0.N) : Memref sig .tc .vmem S512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]

set_option maxHeartbeats 1600000 in
/-- The body at any point: the inputs' buffers hold their blocks; the closed forms say which of the four cases the
    point is in; the invariant hands the body the accumulator at what the point before left and takes it back one
    point further. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl, Phi_castSucc, Phi_succ, leaves0, leaves1]
  have hN := lt64 t
  by_cases h0 : t.val = 0
  · -- the first point
    have hc1 : cond1 (grid0.coords t) := (hcond1 t).mpr h0
    have hc2 : cond2 (grid0.coords t) := (hcond2 t).mpr (by omega)
    have hc3 : ¬cond3 (grid0.coords t) := fun h => by have := (hcond3 t).mp h; omega
    rw [Dat.leavesExact_idle (dats m 0 c) 2 t (idle2 t (by omega)) (noFlush2 t (by omega))]
    rw [show PhiS m c (t.val + 1) = owns (c : Thread nD τ) scM fullShare (accAt (pts m c) (t.val + 1)) from rfl,
      accAt_upper m c t (by omega), h0,
      show PhiS m c 0 = iprop(∃ d, owns (c : Thread nD τ) scM fullShare d) from rfl,
      show accAt (pts m c) 0 = k0_pay1 from rfl]
    iintro ⟨⟨%ds, HS⟩, Ho, ⟨%d0, H0⟩, ⟨%d1, H1⟩, ⟨%d2, H2⟩⟩
    iapply (run_first c (grid0.coords t) _ _ _ _ _ _ _ _ hc1 hc2 hc3 (iblk m c 0 t) (iblk m c 1 t) _ ds Set.univ _)
    isplitl [H0]; · iexact H0
    isplitl [H1]; · iexact H1
    isplitl [H2]; · iexact H2
    isplitl [HS]; · iexact HS
    iintro ⟨H0, H1, H2, HS⟩
    isplitl [HS]; · iexact HS
    isplitl [Ho]; · iexact Ho
    isplitl [H0]; · iexact H0
    isplitl [H1]; · iexact H1
    iexists _; iexact H2
  · have hc1 : ¬cond1 (grid0.coords t) := fun h => h0 ((hcond1 t).mp h)
    rw [show PhiS m c t.val = owns (c : Thread nD τ) scM fullShare (accAt (pts m c) t.val) from by
      obtain ⟨n, hn⟩ : ∃ n, t.val = n + 1 := ⟨t.val - 1, by omega⟩
      rw [hn]; rfl]
    rw [show PhiS m c (t.val + 1) = owns (c : Thread nD τ) scM fullShare (accAt (pts m c) (t.val + 1)) from rfl]
    by_cases h63 : t.val = 63
    · -- the last point
      have hc2 : cond2 (grid0.coords t) := (hcond2 t).mpr (by omega)
      have hc3 : cond3 (grid0.coords t) := (hcond3 t).mpr h63
      rw [show (dats m 0 c).leavesExact 2 t = owns (c : Thread nD τ) (ms2 t) fullShare ((dats m 0 c).after 2 t) from by
        unfold Dat.leavesExact; rw [live2 t h63], after2, accAt_upper m c t (by omega)]
      iintro ⟨HS, Ho, ⟨%d0, H0⟩, ⟨%d1, H1⟩, ⟨%d2, H2⟩⟩
      iapply (run_last c (grid0.coords t) _ _ _ _ _ _ _ _ hc1 hc2 hc3 (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexact H2
    · have hc3 : ¬cond3 (grid0.coords t) := fun h => h63 ((hcond3 t).mp h)
      rw [Dat.leavesExact_idle (dats m 0 c) 2 t (idle2 t h63) (noFlush2 t h63)]
      by_cases hu : t.val / 8 ≤ t.val % 8
      · -- a tile meeting the upper triangle
        have hc2 : cond2 (grid0.coords t) := (hcond2 t).mpr hu
        rw [accAt_upper m c t hu]
        iintro ⟨HS, Ho, ⟨%d0, H0⟩, ⟨%d1, H1⟩, ⟨%d2, H2⟩⟩
        iapply (run_upper c (grid0.coords t) _ _ _ _ _ _ _ _ hc1 hc2 hc3 (iblk m c 0 t) (iblk m c 1 t) _ _ Set.univ _)
        isplitl [H0]; · iexact H0
        isplitl [H1]; · iexact H1
        isplitl [H2]; · iexact H2
        isplitl [HS]; · iexact HS
        iintro ⟨H0, H1, H2, HS⟩
        isplitl [HS]; · iexact HS
        isplitl [Ho]; · iexact Ho
        isplitl [H0]; · iexact H0
        isplitl [H1]; · iexact H1
        iexists _; iexact H2
      · -- a tile below the diagonal
        have hc2 : ¬cond2 (grid0.coords t) := fun h => hu ((hcond2 t).mp h)
        rw [accAt_lower m c t hu]
        iintro ⟨HS, Ho, ⟨%d0, H0⟩, ⟨%d1, H1⟩, ⟨%d2, H2⟩⟩
        iapply (run_lower c (grid0.coords t) _ _ _ _ _ _ _ _ hc1 hc2 hc3 (iblk m c 0 t) (iblk m c 1 t) _ _ Set.univ _)
        isplitl [H0]; · iexact H0
        isplitl [H1]; · iexact H1
        isplitl [H2]; · iexact H2
        isplitl [HS]; · iexact HS
        iintro ⟨H0, H1, H2, HS⟩
        isplitl [HS]; · iexact HS
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Points

end
-- ==== Proof.RunBits.lean ====
/-
  The kernel program's run as printed: @main as a host operation, the kernel region and seven host operations, with
  what every buffer holds at each boundary.
-/
import proofs.«129650_j84731114815830_1_alg».proof.Proof.PointsBits

set_option maxRecDepth 16384

noncomputable section

namespace Cert.Kernel.Run

open Cert.Kernel Cert.Kernel.Gen Cert.Kernel.Body Cert.Kernel.Tiles Cert.Kernel.Points
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole user component. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers through @main: the core's `owes`, at nothing owed. -/
abbrev R (c : Dev nD) : sProp 𝕄 := iprop(∃ W, owes (c : Thread nD τ) (0 : CellTallies nD τ sig Unit) W)

/-! ## The buffers at @main's three boundaries -/

/-- Core `c`'s buffers at launch; -/
abbrev Vl (c : Dev nD) : Valuation τ sig (Elt F) := fun b => m (c, b)

/-- what the region leaves in the result's one-element array; -/
abbrev out (c : Dev nD) : Buf (Elt F) ((c : Thread nD τ).loc main_v1) := (dats m 0 c).arrAt 2 cfg0.N

/-- and every unscoped buffer when the region is left: as it was entered, the result's array apart. -/
def Wv (c : Dev nD) : Valuation τ sig (Elt F) := Function.update (V0 m c) (Proc.devRef .tc main_v1) (out m c)

theorem Wv_v1 (c : Dev nD) : Wv m c (Proc.devRef .tc main_v1) = out m c := Function.update_self ..
theorem Wv_of_ne (c : Dev nD) (b : Ref sig .tc) (h : b ≠ main_v1) : Wv m c (Proc.devRef .tc b) = V m c b :=
  Function.update_of_ne (StableHlo.devRef_ne_of_ne h) ..

/-! ## The windows' arrays, listed -/

/-- The buffers behind the three windows: the array of points (read by both input windows) and the result's. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v0) ↦{fullShare} V' main_v0) ∗ (((c : Thread nD τ).loc main_v1) ↦{fullShare} V' main_v1)) := by
  unfold Pipeline.arrBufs
  exact bigSep_eq_bigSepL_of_eq [main_v0, main_v1] (by decide) (by decide) _

/-- The proof data's arrays: the array of points at one half for each input window, the result's whole. -/
theorem arrays_eq (c : Dev nD) (G : (w : Fin cfg0.W) → Buf (Elt F) ((cfg0.win w).arr.view.loc (c : Thread nD τ))) :
    (dats m 0 c).arrays G
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Dat.arrays
  rw [bigSep_W0]
  rw [(arr_whole0 0).set_eq_univ, (arr_whole0 2).set_eq_univ]
  rfl

/-- An input array is never written: at every point it holds what it held at entry. -/
theorem arrAt0 (c : Dev nD) (n : ℕ) : (dats m 0 c).arrAt 0 n = V m c main_v0 := ((dats m 0 c).arrAt_in 0 rfl n).trans (A_eq m c 0)
theorem arrAt1 (c : Dev nD) (n : ℕ) : (dats m 0 c).arrAt 1 n = V m c main_v0 := ((dats m 0 c).arrAt_in 1 rfl n).trans (A_eq m c 1)

/-! ## @main as three segments -/

/-- The host operation before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (Vl m) R

/-- The host operations after the region, over the unscoped buffers as the region leaves them. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Wv m) R

set_option backward.isDefEq.respectTransparency.types false in
/-- The region. It is entered from every unscoped buffer at the contents the first host operation left: the array of
    points is split in two halves, one per input window; the result's array enters whole; every other buffer bypasses
    the region. The invariant is the accumulator (a scoped buffer). At the exit the two halves are joined again and
    the result's array is held at what the last point wrote back. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (Vl m c)) ∗ R c)
  post c := iprop(StableHlo.held (c : Thread nD τ) (Pipeline.ucRefs τ sig) (Wv m c) ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (StableHlo.after hostOps0 (Vl m c)) = unscopedBufs c (V m c) from (Pipeline.unscopedBufs_held c _).symm,
      Pipeline.unscopedBufs_split₀ cfgs 0 (fun w => by fin_cases w <;> rfl) c (V m c), arrBufs_eq, arrays_eq]
    iintro ⟨⟨⟨⟨H0, H1⟩, Hr⟩, HO⟩, -, -⟩
    ihave Hs := (pointsTo_share (PosShare.mem_left_op_right fullShare)).1 $$ H0
    icases Hs with ⟨Hl, Hrt⟩
    imodintro
    isplitl [Hl Hrt H1]
    · rw [show (dats m 0 c).arrAt 0 0 = V m c main_v0 from arrAt0 m c 0, show (dats m 0 c).arrAt 1 0 = V m c main_v0 from arrAt1 m c 0]
      isplitl [Hl]; · iexact Hl
      isplitl [Hrt]; · iexact Hrt
      iexact H1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = PhiS m c 0 from rfl, show PhiS m c 0 = iprop(∃ d, owns (c : Thread nD τ) scM fullShare d) from rfl, scopedRest0_eq]
    iintro ⟨-, -, ⟨%f, Hs⟩⟩
    iexists f
    rw [owns_whole]
    iexact Hs
  hout c := by
    rw [Pipeline.ownSems0_none, show (dats m 0 c).Φ (Fin.last cfg0.N) = PhiS m c 64 from rfl,
      show PhiS m c 64 = owns (c : Thread nD τ) scM fullShare (accAt (pts m c) 64) from rfl, scopedRest0_eq, owns_whole]
    iintro Hs
    isplitr; · iempintro
    isplitr; · iempintro
    iexists _; iexact Hs
  hexit c := by
    rw [arrays_eq, show (dats m 0 c).arrAt 0 cfg0.N = V m c main_v0 from arrAt0 m c _, show (dats m 0 c).arrAt 1 cfg0.N = V m c main_v0 from arrAt1 m c _,
      show StableHlo.held (c : Thread nD τ) (Pipeline.ucRefs τ sig) (Wv m c) = unscopedBufs c (fun b => Wv m c (Proc.devRef .tc b)) from (Pipeline.unscopedBufs_held c _).symm,
      Pipeline.unscopedBufs_split₀ cfgs 0 (fun w => by fin_cases w <;> rfl) c (fun b => Wv m c (Proc.devRef .tc b)), arrBufs_eq,
      unscopedRest0_eq, unscopedRest0_eq]
    simp only [Wv_v1, Wv_of_ne m c main_v0 (by decide), Wv_of_ne m c main_arg0 (by decide), Wv_of_ne m c main_v2 (by decide), Wv_of_ne m c main_cst (by decide),
      Wv_of_ne m c main_v3 (by decide), Wv_of_ne m c main_cst_0 (by decide), Wv_of_ne m c main_v4 (by decide), Wv_of_ne m c main_cst_1 (by decide), Wv_of_ne m c main_v5 (by decide)]
    iintro ⟨⟨Hl, Hrt, H1⟩, HO, -, Hr⟩
    ihave H0 := (pointsTo_share (PosShare.mem_left_op_right fullShare)).2 $$ [Hl Hrt]
    · isplitl [Hl] <;> iassumption
    imodintro
    isplitr [HO]
    · isplitr [Hr]
      · isplitl [H0]; · iexact H0
        iexact H1
      iexact Hr
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- The launch element: the pipeline library's at the staging cells. -/
def u₀ : UR sig nD τ := initOf (Pipeline.cells cfgs cellOf_inj) (Pipeline.launchToks cfgs cellOf_inj)

/-- What the run leaves: every unscoped buffer at the contents the last host operations compute from the region's exit. -/
abbrev Tₙ (c : Dev nD) : sProp 𝕄 := StableHlo.held (c : Thread nD τ) (Pipeline.ucRefs τ sig) (StableHlo.after hostOps1 (Wv m c))

/-- The final contents of a TensorCore buffer. -/
abbrev fin (c : Dev nD) (b : Ref sig .tc) : Buf (Elt F) ((c : Thread nD τ).loc b) := StableHlo.after hostOps1 (Wv m c) (Proc.devRef .tc b)

set_option backward.isDefEq.respectTransparency.types false in
/-- At the compiled mesh, from any memory with zero counters: every weakly fair execution of @main on the TensorCores
    terminates, and every final state has the result and the argument at the contents the three segments compute. -/
theorem run_main : θ_run defs (onTc (τ := τ) (main (F := F))) ⟨m, fun _ => 0, ρ⟩ (fun r => ∀ c : Dev nD,
      r.2.mem ((c.tc : Thread nD τ).loc main_v5) = fin m c main_v5
      ∧ r.2.mem ((c.tc : Thread nD τ).loc main_arg0) = fin m c main_arg0) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, -, -⟩, -⟩
      imodintro
      isplitl [Hh]; · iexact Hh
      iexists ∅; iexact HO)
    (QY := fun c s => s.mem ((c.tc : Thread nD τ).loc main_v5) = fin m c main_v5 ∧ s.mem ((c.tc : Thread nD τ).loc main_arg0) = fin m c main_arg0)
    (hfin := fun c s' => by
      dsimp only [Tₙ]
      rw [show StableHlo.held (c : Thread nD τ) (Pipeline.ucRefs τ sig) (StableHlo.after hostOps1 (Wv m c)) = unscopedBufs c (fun b => fin m c b) from (Pipeline.unscopedBufs_held c _).symm,
        Pipeline.unscopedBufs_split₀ cfgs 0 (fun w => by fin_cases w <;> rfl) c (fun b => fin m c b), unscopedRest0_eq]
      iintro ⟨⟨-, Ha0, -, -, -, -, -, -, H5⟩, HSI⟩
      icombine HSI H5 gives %h5
      icombine HSI Ha0 gives %h0
      imodintro
      isplitr; · ipureintro; exact ⟨Buf.eq_of_forall_mem_univ h5, Buf.eq_of_forall_mem_univ h0⟩
      iexact HSI)
    (hQ := fun _ h => h)

end Cert.Kernel.Run

end
-- ==== Proof.FrameBits.lean ====
/-
  The kernel program's frame as printed: its run ends with the argument array as launched.
-/
import proofs.«129650_j84731114815830_1_alg».proof.Proof.RunBits

set_option maxRecDepth 16384

noncomputable section

namespace Cert.Kernel.Run

open Cert.Kernel Cert.Kernel.Gen Cert.Kernel.Body Cert.Kernel.Tiles Cert.Kernel.Points
open Idealize.ShloMosaic Idealize.ShloMosaic.TcCoe Idealize.ShloMosaic.ValueIdx
open Idealize.SL Idealize.SL.Sem

variable {F : FTy → Type} [FloatOps F]

variable (m : (ℓ : Loc nD τ sig) → Buf (Elt F) ℓ) (ρ : Dev nD → PrngReg)

/-! ## The argument reaches the end as launched -/

/-- No host operation writes the argument, and the region does not hold it: it ends as it was launched. -/
theorem fin_arg0 (c : Dev nD) : fin m c main_arg0 = m ((c : Thread nD τ).loc main_arg0) := by
  show StableHlo.after hostOps1 (Wv m c) (Proc.devRef .tc main_arg0) = _
  rw [StableHlo.after_of_forall_not_mem (b := Proc.devRef .tc main_arg0) hostOps1 (Wv m c) (fun op hop => by
    simp only [hostOps1, List.mem_cons, List.mem_nil_iff, or_false] at hop
    rcases hop with rfl | rfl | rfl | rfl | rfl | rfl | rfl <;>
      simp only [StableHlo.unary_writes, StableHlo.binary_writes, StableHlo.nullary_writes, StableHlo.reshape_writes, Finset.mem_singleton] <;>
      exact StableHlo.devRef_ne_of_ne (by decide)), Wv_of_ne m c main_arg0 (by decide)]
  show StableHlo.after hostOps0 (Vl m c) (Proc.devRef .tc main_arg0) = _
  rw [StableHlo.after_of_forall_not_mem (b := Proc.devRef .tc main_arg0) hostOps0 (Vl m c) (fun op hop => by
    simp only [hostOps0, List.mem_cons, List.mem_nil_iff, or_false] at hop
    rcases hop with rfl
    simp only [StableHlo.reshape_writes, Finset.mem_singleton]
    exact StableHlo.devRef_ne_of_ne (by decide))]

/-- The frame: every weakly fair execution terminates, nothing faulting, with the argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2).trans (fin_arg0 m c)) (run_main m ρ)

end Cert.Kernel.Run

end
-- ==== Proof.BodyIdeal.lean ====
/-
  The kernel body of the idealized program, run symbolically at one grid point, in each of the four cases its three
  conditionals meet on the 8 × 8 grid.
-/
import proofs.«129650_j84731114815830_1_alg».proof.Proof.Gen.KernelIdeal.Launch
import proofs.«129650_j84731114815830_1_alg».proof.Proof.Gen.KernelIdeal.Skeleton
import proofs.«129650_j84731114815830_1_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three branch conditions, over the grid coordinates -/

/-- "This is the first point": both coordinates are zero. -/
abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- "The tile meets the upper triangle": the row coordinate is at most the column coordinate. -/
abbrev cond2 (i : grid0.Coords) : Prop :=
  Scalar.cmpi .ne (Scalar.extui (Scalar.cmpi .sle (BitVec.ofNat 32 (i 0).val) (BitVec.ofNat 32 (i 1).val))) 0#32 = 1#1
/-- "This is the last point": both coordinates are seven. -/
abbrev cond3 (i : grid0.Coords) : Prop := k0_cond3 i = 1#1

/-- Point `t` of the 8 × 8 grid has coordinates (t / 8, t % 8); the three conditions in closed form. -/
theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val / 8 ≤ t.val % 8 :=
  (by decide +kernel : ∀ t : Fin grid0.N, cond2 (grid0.coords t) ↔ t.val / 8 ≤ t.val % 8)
theorem hcond3 : ∀ t : Fin cfg0.N, cond3 (grid0.coords t) ↔ t.val = 63 :=
  (by decide +kernel : ∀ t : Fin grid0.N, cond3 (grid0.coords t) ↔ t.val = 63)
/-- The coordinates themselves. -/
theorem hcoords : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-! ## A store of a whole buffer, read back -/

/-- The offset (0, 0) is the zero offset. -/
theorem hz : (![0, 0] : Fin 2 → Nat) = fun _ => 0 := by funext a; fin_cases a <;> rfl

/-- After a sequence of stores whose LAST is through the rectangle that is the whole shape, a buffer reads as that
    store's vector, whatever it held before and whatever the earlier stores were. -/
theorem read_store_last {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

/-! ## The body, case by case

On whole memrefs — the two input blocks at `x0`, `x1`, the result's one-element buffer at `xi2`, the one-element
accumulator at `xs` — the body runs to the continuation with the inputs as they were and:
the accumulator at the tile's sum added to zero (first point), to `xs` (a later point meeting the upper triangle), or
untouched (a point below the diagonal); the result's buffer untouched, except at the last point, where it receives the
accumulator. -/

set_option maxHeartbeats 1000000 in
/-- The first point (0, 0): the accumulator is zeroed, then the tile's sum is added. -/
theorem run_first (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S1x1 .f32) (harg4 : arg4.IsWhole) (arg5 : Memref sig .tc .vmem S1x1 .f32) (harg5 : arg5.IsWhole)
    (hc1 : cond1 i) (hc2 : cond2 i) (hc3 : ¬cond3 i)
    (x0 x1 : Vec F S512x3 .f32) (xi2 xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs
        ∗ (iprop(owns (c : Thread nD τ) arg2 fullShare x0 ∗ owns (c : Thread nD τ) arg3 fullShare x1 ∗ owns (c : Thread nD τ) arg4 fullShare xi2 ∗ owns (c : Thread nD τ) arg5 fullShare (k0_pay2 (k0_pay3 (BitVec.ofNat 32 (i 0).val) (BitVec.ofNat 32 (i 1).val) x0 x1) (k0_pay1 (F := F)))) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  simp only [k0_part1_eq_skeleton]
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    first
      | exact harg4.read_unread _
      | (sl_unfold_run_names
         rw [read_store_last (S := S1x1) _ _ hz]
         simp only [View.readAt_eq_ld, harg2.read_unread, harg3.read_unread, harg4.read_unread, harg5.read_unread, View.ld_unit_zero (S := S1x1) hz, View.ld_unit_zero (S := S512x3) hz, View.readCov_unit_zero (S := S1x1) _ hz])
  · iexists _; isplitr; swap; · iexact HS
    ipureintro
    first
      | exact harg5.read_unread _
      | (sl_unfold_run_names
         rw [read_store_last (S := S1x1) _ _ hz]
         simp only [View.readAt_eq_ld, harg2.read_unread, harg3.read_unread, harg4.read_unread, harg5.read_unread, View.ld_unit_zero (S := S1x1) hz, View.ld_unit_zero (S := S512x3) hz, View.readCov_unit_zero (S := S1x1) _ hz])

set_option maxHeartbeats 1000000 in
/-- A later point with I ≤ J that is not the last: the tile's sum is added to the accumulator. -/
theorem run_upper (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S1x1 .f32) (harg4 : arg4.IsWhole) (arg5 : Memref sig .tc .vmem S1x1 .f32) (harg5 : arg5.IsWhole)
    (hc1 : ¬cond1 i) (hc2 : cond2 i) (hc3 : ¬cond3 i)
    (x0 x1 : Vec F S512x3 .f32) (xi2 xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs
        ∗ (iprop(owns (c : Thread nD τ) arg2 fullShare x0 ∗ owns (c : Thread nD τ) arg3 fullShare x1 ∗ owns (c : Thread nD τ) arg4 fullShare xi2 ∗ owns (c : Thread nD τ) arg5 fullShare (k0_pay2 (k0_pay3 (BitVec.ofNat 32 (i 0).val) (BitVec.ofNat 32 (i 1).val) x0 x1) xs)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  simp only [k0_part1_eq_skeleton]
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    first
      | exact harg4.read_unread _
      | (sl_unfold_run_names
         rw [read_store_last (S := S1x1) _ _ hz]
         simp only [View.readAt_eq_ld, harg2.read_unread, harg3.read_unread, harg4.read_unread, harg5.read_unread, View.ld_unit_zero (S := S1x1) hz, View.ld_unit_zero (S := S512x3) hz, View.readCov_unit_zero (S := S1x1) _ hz])
  · iexists _; isplitr; swap; · iexact HS
    ipureintro
    first
      | exact harg5.read_unread _
      | (sl_unfold_run_names
         rw [read_store_last (S := S1x1) _ _ hz]
         simp only [View.readAt_eq_ld, harg2.read_unread, harg3.read_unread, harg4.read_unread, harg5.read_unread, View.ld_unit_zero (S := S1x1) hz, View.ld_unit_zero (S := S512x3) hz, View.readCov_unit_zero (S := S1x1) _ hz])

set_option maxHeartbeats 1000000 in
/-- A point with I > J: nothing is stored. -/
theorem run_lower (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S1x1 .f32) (harg4 : arg4.IsWhole) (arg5 : Memref sig .tc .vmem S1x1 .f32) (harg5 : arg5.IsWhole)
    (hc1 : ¬cond1 i) (hc2 : ¬cond2 i) (hc3 : ¬cond3 i)
    (x0 x1 : Vec F S512x3 .f32) (xi2 xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs
        ∗ (iprop(owns (c : Thread nD τ) arg2 fullShare x0 ∗ owns (c : Thread nD τ) arg3 fullShare x1 ∗ owns (c : Thread nD τ) arg4 fullShare xi2 ∗ owns (c : Thread nD τ) arg5 fullShare xs) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  simp only [k0_part1_eq_skeleton]
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    first
      | exact harg4.read_unread _
      | (sl_unfold_run_names
         rw [read_store_last (S := S1x1) _ _ hz]
         simp only [View.readAt_eq_ld, harg2.read_unread, harg3.read_unread, harg4.read_unread, harg5.read_unread, View.ld_unit_zero (S := S1x1) hz, View.ld_unit_zero (S := S512x3) hz, View.readCov_unit_zero (S := S1x1) _ hz])
  · iexists _; isplitr; swap; · iexact HS
    ipureintro
    first
      | exact harg5.read_unread _
      | (sl_unfold_run_names
         rw [read_store_last (S := S1x1) _ _ hz]
         simp only [View.readAt_eq_ld, harg2.read_unread, harg3.read_unread, harg4.read_unread, harg5.read_unread, View.ld_unit_zero (S := S1x1) hz, View.ld_unit_zero (S := S512x3) hz, View.readCov_unit_zero (S := S1x1) _ hz])

set_option maxHeartbeats 1000000 in
/-- The last point (7, 7): the tile's sum is added, and the accumulator is copied to the result's buffer. -/
theorem run_last (c : Dev nD) (i : grid0.Coords) (arg2 : Memref sig .tc .vmem S512x3 .f32) (harg2 : arg2.IsWhole) (arg3 : Memref sig .tc .vmem S512x3 .f32) (harg3 : arg3.IsWhole) (arg4 : Memref sig .tc .vmem S1x1 .f32) (harg4 : arg4.IsWhole) (arg5 : Memref sig .tc .vmem S1x1 .f32) (harg5 : arg5.IsWhole)
    (hc1 : ¬cond1 i) (hc2 : cond2 i) (hc3 : cond3 i)
    (x0 x1 : Vec F S512x3 .f32) (xi2 xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs
        ∗ (iprop(owns (c : Thread nD τ) arg2 fullShare x0 ∗ owns (c : Thread nD τ) arg3 fullShare x1 ∗ owns (c : Thread nD τ) arg4 fullShare (k0_pay2 (k0_pay3 (BitVec.ofNat 32 (i 0).val) (BitVec.ofNat 32 (i 1).val) x0 x1) xs) ∗ owns (c : Thread nD τ) arg5 fullShare (k0_pay2 (k0_pay3 (BitVec.ofNat 32 (i 0).val) (BitVec.ofNat 32 (i 1).val) x0 x1) xs)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  simp only [k0_part1_eq_skeleton]
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    first
      | exact harg4.read_unread _
      | (sl_unfold_run_names
         rw [read_store_last (S := S1x1) _ _ hz]
         simp only [View.readAt_eq_ld, harg2.read_unread, harg3.read_unread, harg4.read_unread, harg5.read_unread, View.ld_unit_zero (S := S1x1) hz, View.ld_unit_zero (S := S512x3) hz, View.readCov_unit_zero (S := S1x1) _ hz])
  · iexists _; isplitr; swap; · iexact HS
    ipureintro
    first
      | exact harg5.read_unread _
      | (sl_unfold_run_names
         rw [read_store_last (S := S1x1) _ _ hz]
         simp only [View.readAt_eq_ld, harg2.read_unread, harg3.read_unread, harg4.read_unread, harg5.read_unread, View.ld_unit_zero (S := S1x1) hz, View.ld_unit_zero (S := S512x3) hz, View.readCov_unit_zero (S := S1x1) _ hz])

end Cert.KernelIdeal.Body

end
-- ==== Proof.Tiles.lean ====
/-
  The kernel's accumulation, point by point, as a pure recursion over the generated payload names.

  The grid is 8 × 8; point n has coordinates (I, J) = (n / 8, n % 8) and sees rows 512·I … 512·I+511 of the array as
  its first block and rows 512·J … 512·J+511 as its second. The one-element accumulator is set to zero at the first
  point, and at every point with I ≤ J the tile's sum is added to it; at the last point it is copied to the result.
  `accAt x n` is the accumulator after the first `n` points.
-/
import proofs.«129650_j84731114815830_1_alg».proof.Proof.Gen.KernelIdeal.Skeleton
import Idealize.ShloMosaic.Lib.ValueIdx

noncomputable section

namespace Cert.KernelIdeal.Tiles

open Idealize.ShloMosaic Idealize.ShloMosaic.ValueIdx Cert.KernelIdeal Cert.KernelIdeal.Gen

variable {F : FTy → Type} [FloatOps F]

/-- Rows 512·I … 512·I+511 of a [4096, 3] array, as a [512, 3] block. -/
def rowsBlock (x : Vec F S4096x3 .f32) (I : Fin 8) : Vec F S512x3 .f32 :=
  fun y => x (ix2 (n0 := 4096) (n1 := 3)
    ⟨512 * I.val + (y 0).val, by have := idx2_lt0 y; have := I.isLt; omega⟩ (y 1))

/-- The array row that row `a` of block `I` is. -/
def rowOf (I : Fin 8) (a : Fin 512) : Fin 4096 := ⟨512 * I.val + a.val, by have := I.isLt; have := a.isLt; omega⟩

/-- What the tile at grid coordinates (I, J) adds: the accumulator `acc` plus the sum of the tile's masked charges. -/
def tileStep (x : Vec F S4096x3 .f32) (I J : Fin 8) (acc : Vec F S1x1 .f32) : FVec F S1x1 .f32 :=
  k0_pay2 (k0_pay3 (BitVec.ofNat 32 I.val) (BitVec.ofNat 32 J.val) (rowsBlock x I) (rowsBlock x J)) acc

/-- The accumulator after the first `n` grid points: zero before any, and each point with I ≤ J adds its tile. -/
def accAt (x : Vec F S4096x3 .f32) : Nat → FVec F S1x1 .f32
  | 0 => k0_pay1
  | n + 1 =>
    if h : n / 8 ≤ n % 8 ∧ n / 8 < 8 then tileStep x ⟨n / 8, h.2⟩ ⟨n % 8, Nat.mod_lt _ (by decide)⟩ (accAt x n)
    else accAt x n

end Cert.KernelIdeal.Tiles

end
-- ==== Proof.PointsIdeal.lean ====
/-
  The idealized kernel's region, point by point: what the two input windows and the result's window hold at each of
  the 64 grid points, the accumulator carried from point to point, and the body's obligation at every point.
-/
import proofs.«129650_j84731114815830_1_alg».proof.Proof.BodyIdeal
import proofs.«129650_j84731114815830_1_alg».proof.Proof.Tiles

set_option maxRecDepth 16384

noncomputable section

namespace Cert.KernelIdeal.Points

open Cert.KernelIdeal Cert.KernelIdeal.Gen Cert.KernelIdeal.Body Cert.KernelIdeal.Tiles
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region finds -/

/-- Core `c`'s buffers when the region is entered: the launch contents after the one host operation before it (the
    reshape of the flat argument into 4096 rows of 3). -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- The [4096, 3] array of points, as both input windows find it. -/
abbrev pts (c : Dev nD) : Vec F S4096x3 .f32 := V m c main_v0

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first window's block index at point `t` is (t / 8, 0), the second's (t % 8, 0). -/
theorem index0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem index1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)

theorem lt64 (t : Fin cfg0.N) : t.val < 64 := lt_of_lt_of_eq t.isLt (show cfg0.N = 64 from N_0)

/-- The first window's block at point `t` is rows 512·(t/8) … of the array; -/
theorem iblk0_eq (c : Dev nD) (t : Fin cfg0.N) :
    (iblk m c 0 t : Vec F S512x3 .f32) = rowsBlock (pts m c) ⟨t.val / 8, by have := lt64 t; omega⟩ := by
  funext y
  unfold iblk rowsBlock
  show V m c main_v0 (((cfg0.win 0).blk t).view.emb y) = V m c main_v0 _
  refine congrArg _ (funext fun a => Fin.ext ?_)
  match a with
  | ⟨0, _⟩ => show win0_0.index t (0 : Fin 2) * 512 + 1 * (y 0).val = 512 * (t.val / 8) + (y 0).val; rw [(index0 t).1]; omega
  | ⟨1, _⟩ => show win0_0.index t (1 : Fin 2) * 3 + 1 * (y 1).val = (y 1).val; rw [(index0 t).2]; omega

/-- the second window's is rows 512·(t%8) … . -/
theorem iblk1_eq (c : Dev nD) (t : Fin cfg0.N) :
    (iblk m c 1 t : Vec F S512x3 .f32) = rowsBlock (pts m c) ⟨t.val % 8, Nat.mod_lt _ (by decide)⟩ := by
  funext y
  unfold iblk rowsBlock
  show V m c main_v0 (((cfg0.win 1).blk t).view.emb y) = V m c main_v0 _
  refine congrArg _ (funext fun a => Fin.ext ?_)
  match a with
  | ⟨0, _⟩ => show win0_1.index t (0 : Fin 2) * 512 + 1 * (y 0).val = 512 * (t.val % 8) + (y 0).val; rw [(index1 t).1]; omega
  | ⟨1, _⟩ => show win0_1.index t (1 : Fin 2) * 3 + 1 * (y 1).val = (y 1).val; rw [(index1 t).2]; omega

/-! ## The accumulator, one point further -/

/-- At a point with I ≤ J the accumulator gains the tile's sum, the tile being that of the point's two blocks; -/
theorem accAt_upper (c : Dev nD) (t : Fin cfg0.N) (h : t.val / 8 ≤ t.val % 8) :
    accAt (pts m c) (t.val + 1)
      = k0_pay2 (k0_pay3 (BitVec.ofNat 32 ((grid0.coords t) 0).val) (BitVec.ofNat 32 ((grid0.coords t) 1).val) (iblk m c 0 t) (iblk m c 1 t)) (accAt (pts m c) t.val) := by
  have h8 : t.val / 8 < 8 := by have := lt64 t; omega
  rw [iblk0_eq, iblk1_eq, (hcoords t).1, (hcoords t).2]
  show (if h : t.val / 8 ≤ t.val % 8 ∧ t.val / 8 < 8 then _ else _) = _
  rw [dif_pos ⟨h, h8⟩]; rfl

/-- at a point with I > J it is unchanged. -/
theorem accAt_lower (c : Dev nD) (t : Fin cfg0.N) (h : ¬ t.val / 8 ≤ t.val % 8) :
    accAt (pts m c) (t.val + 1) = accAt (pts m c) t.val := by
  show (if h : t.val / 8 ≤ t.val % 8 ∧ t.val / 8 < 8 then _ else _) = _
  rw [dif_neg fun h' => h h'.1]

/-! ## The proof data -/

/-- The one-element accumulator, a scoped buffer of the kernel's own. -/
abbrev scM : Memref sig .tc .vmem S1x1 .f32 := Memref.whole cc0_scratch0

/-- The region's invariant before point `n`: the accumulator at anything before the first point, afterwards at the sum
    of the tiles met so far. -/
def PhiS (c : Dev nD) : ℕ → sProp 𝕄
  | 0 => iprop(∃ d, owns (c : Thread nD τ) scM fullShare d)
  | n + 1 => owns (c : Thread nD τ) scM fullShare (accAt (pts m c) (n + 1))

/-- The proof data on core `c`. Each input's staging buffer holds its block and is left as found; the result's
    one-element buffer receives the accumulator at the last point (at the other points the body does not touch it);
    the two input windows read ONE array, so each holds one half of it; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt (pts m c) (t.val + 1)
  Φ t := PhiS m c t.val
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt (pts m c) (t.val + 1) := by dsimp only [dats]
theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := rfl

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-! ## Where the result's window is idle -/

theorem live0 : ∀ t : Fin cfg0.N, cfg0.idle 0 (grid0.coords t) = false := fun _ => rfl
theorem live1 : ∀ t : Fin cfg0.N, cfg0.idle 1 (grid0.coords t) = false := fun _ => rfl
/-- The body stores into the result's buffer at the last point only, and only there is it written back. -/
theorem idle2 : ∀ t : Fin cfg0.N, t.val ≠ 63 → cfg0.idle 2 (grid0.coords t) = true :=
  (by decide +kernel : ∀ t : Fin grid0.N, t.val ≠ 63 → idle0 2 (grid0.coords t) = true)
theorem live2 : ∀ t : Fin cfg0.N, t.val = 63 → cfg0.idle 2 (grid0.coords t) = false :=
  (by decide +kernel : ∀ t : Fin grid0.N, t.val = 63 → idle0 2 (grid0.coords t) = false)
theorem noFlush2 (t : Fin cfg0.N) (h : t.val ≠ 63) : (cfg0.win 2).flush t = false := by
  have := lt64 t
  cases hf : (cfg0.win 2).flush t
  · rfl
  · exact absurd ((flush0_2 t).mp hf) (by omega)

/-! ## The body obligation -/

abbrev ms0 (t : Fin cfg0.N) : Memref sig .tc .vmem S512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]

set_option maxHeartbeats 1600000 in
/-- The body at any point: the inputs' buffers hold their blocks; the closed forms say which of the four cases the
    point is in; the invariant hands the body the accumulator at what the point before left and takes it back one
    point further. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl, Phi_castSucc, Phi_succ, leaves0, leaves1]
  have hN := lt64 t
  by_cases h0 : t.val = 0
  · -- the first point
    have hc1 : cond1 (grid0.coords t) := (hcond1 t).mpr h0
    have hc2 : cond2 (grid0.coords t) := (hcond2 t).mpr (by omega)
    have hc3 : ¬cond3 (grid0.coords t) := fun h => by have := (hcond3 t).mp h; omega
    rw [Dat.leavesExact_idle (dats m 0 c) 2 t (idle2 t (by omega)) (noFlush2 t (by omega))]
    rw [show PhiS m c (t.val + 1) = owns (c : Thread nD τ) scM fullShare (accAt (pts m c) (t.val + 1)) from rfl,
      accAt_upper m c t (by omega), h0,
      show PhiS m c 0 = iprop(∃ d, owns (c : Thread nD τ) scM fullShare d) from rfl,
      show accAt (pts m c) 0 = k0_pay1 from rfl]
    iintro ⟨⟨%ds, HS⟩, Ho, ⟨%d0, H0⟩, ⟨%d1, H1⟩, ⟨%d2, H2⟩⟩
    iapply (run_first c (grid0.coords t) _ _ _ _ _ _ _ _ hc1 hc2 hc3 (iblk m c 0 t) (iblk m c 1 t) _ ds Set.univ _)
    isplitl [H0]; · iexact H0
    isplitl [H1]; · iexact H1
    isplitl [H2]; · iexact H2
    isplitl [HS]; · iexact HS
    iintro ⟨H0, H1, H2, HS⟩
    isplitl [HS]; · iexact HS
    isplitl [Ho]; · iexact Ho
    isplitl [H0]; · iexact H0
    isplitl [H1]; · iexact H1
    iexists _; iexact H2
  · have hc1 : ¬cond1 (grid0.coords t) := fun h => h0 ((hcond1 t).mp h)
    rw [show PhiS m c t.val = owns (c : Thread nD τ) scM fullShare (accAt (pts m c) t.val) from by
      obtain ⟨n, hn⟩ : ∃ n, t.val = n + 1 := ⟨t.val - 1, by omega⟩
      rw [hn]; rfl]
    rw [show PhiS m c (t.val + 1) = owns (c : Thread nD τ) scM fullShare (accAt (pts m c) (t.val + 1)) from rfl]
    by_cases h63 : t.val = 63
    · -- the last point
      have hc2 : cond2 (grid0.coords t) := (hcond2 t).mpr (by omega)
      have hc3 : cond3 (grid0.coords t) := (hcond3 t).mpr h63
      rw [show (dats m 0 c).leavesExact 2 t = owns (c : Thread nD τ) (ms2 t) fullShare ((dats m 0 c).after 2 t) from by
        unfold Dat.leavesExact; rw [live2 t h63], after2, accAt_upper m c t (by omega)]
      iintro ⟨HS, Ho, ⟨%d0, H0⟩, ⟨%d1, H1⟩, ⟨%d2, H2⟩⟩
      iapply (run_last c (grid0.coords t) _ _ _ _ _ _ _ _ hc1 hc2 hc3 (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexact H2
    · have hc3 : ¬cond3 (grid0.coords t) := fun h => h63 ((hcond3 t).mp h)
      rw [Dat.leavesExact_idle (dats m 0 c) 2 t (idle2 t h63) (noFlush2 t h63)]
      by_cases hu : t.val / 8 ≤ t.val % 8
      · -- a tile meeting the upper triangle
        have hc2 : cond2 (grid0.coords t) := (hcond2 t).mpr hu
        rw [accAt_upper m c t hu]
        iintro ⟨HS, Ho, ⟨%d0, H0⟩, ⟨%d1, H1⟩, ⟨%d2, H2⟩⟩
        iapply (run_upper c (grid0.coords t) _ _ _ _ _ _ _ _ hc1 hc2 hc3 (iblk m c 0 t) (iblk m c 1 t) _ _ Set.univ _)
        isplitl [H0]; · iexact H0
        isplitl [H1]; · iexact H1
        isplitl [H2]; · iexact H2
        isplitl [HS]; · iexact HS
        iintro ⟨H0, H1, H2, HS⟩
        isplitl [HS]; · iexact HS
        isplitl [Ho]; · iexact Ho
        isplitl [H0]; · iexact H0
        isplitl [H1]; · iexact H1
        iexists _; iexact H2
      · -- a tile below the diagonal
        have hc2 : ¬cond2 (grid0.coords t) := fun h => hu ((hcond2 t).mp h)
        rw [accAt_lower m c t hu]
        iintro ⟨HS, Ho, ⟨%d0, H0⟩, ⟨%d1, H1⟩, ⟨%d2, H2⟩⟩
        iapply (run_lower c (grid0.coords t) _ _ _ _ _ _ _ _ hc1 hc2 hc3 (iblk m c 0 t) (iblk m c 1 t) _ _ Set.univ _)
        isplitl [H0]; · iexact H0
        isplitl [H1]; · iexact H1
        isplitl [H2]; · iexact H2
        isplitl [HS]; · iexact HS
        iintro ⟨H0, H1, H2, HS⟩
        isplitl [HS]; · iexact HS
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Points

end
-- ==== Proof.RunIdeal.lean ====
/-
  The idealized kernel program's run: @main as a host operation, the kernel region and seven host operations, with
  what every buffer holds at each boundary.
-/
import proofs.«129650_j84731114815830_1_alg».proof.Proof.PointsIdeal

set_option maxRecDepth 16384

noncomputable section

namespace Cert.KernelIdeal.Run

open Cert.KernelIdeal Cert.KernelIdeal.Gen Cert.KernelIdeal.Body Cert.KernelIdeal.Tiles Cert.KernelIdeal.Points
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole user component. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers through @main: the core's `owes`, at nothing owed. -/
abbrev R (c : Dev nD) : sProp 𝕄 := iprop(∃ W, owes (c : Thread nD τ) (0 : CellTallies nD τ sig Unit) W)

/-! ## The buffers at @main's three boundaries -/

/-- Core `c`'s buffers at launch; -/
abbrev Vl (c : Dev nD) : Valuation τ sig (Elt F) := fun b => m (c, b)

/-- what the region leaves in the result's one-element array; -/
abbrev out (c : Dev nD) : Buf (Elt F) ((c : Thread nD τ).loc main_v1) := (dats m 0 c).arrAt 2 cfg0.N

/-- and every unscoped buffer when the region is left: as it was entered, the result's array apart. -/
def Wv (c : Dev nD) : Valuation τ sig (Elt F) := Function.update (V0 m c) (Proc.devRef .tc main_v1) (out m c)

theorem Wv_v1 (c : Dev nD) : Wv m c (Proc.devRef .tc main_v1) = out m c := Function.update_self ..
theorem Wv_of_ne (c : Dev nD) (b : Ref sig .tc) (h : b ≠ main_v1) : Wv m c (Proc.devRef .tc b) = V m c b :=
  Function.update_of_ne (StableHlo.devRef_ne_of_ne h) ..

/-! ## The windows' arrays, listed -/

/-- The buffers behind the three windows: the array of points (read by both input windows) and the result's. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v0) ↦{fullShare} V' main_v0) ∗ (((c : Thread nD τ).loc main_v1) ↦{fullShare} V' main_v1)) := by
  unfold Pipeline.arrBufs
  exact bigSep_eq_bigSepL_of_eq [main_v0, main_v1] (by decide) (by decide) _

/-- The proof data's arrays: the array of points at one half for each input window, the result's whole. -/
theorem arrays_eq (c : Dev nD) (G : (w : Fin cfg0.W) → Buf (Elt F) ((cfg0.win w).arr.view.loc (c : Thread nD τ))) :
    (dats m 0 c).arrays G
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Dat.arrays
  rw [bigSep_W0]
  rw [(arr_whole0 0).set_eq_univ, (arr_whole0 2).set_eq_univ]
  rfl

/-- An input array is never written: at every point it holds what it held at entry. -/
theorem arrAt0 (c : Dev nD) (n : ℕ) : (dats m 0 c).arrAt 0 n = V m c main_v0 := ((dats m 0 c).arrAt_in 0 rfl n).trans (A_eq m c 0)
theorem arrAt1 (c : Dev nD) (n : ℕ) : (dats m 0 c).arrAt 1 n = V m c main_v0 := ((dats m 0 c).arrAt_in 1 rfl n).trans (A_eq m c 1)

/-! ## @main as three segments -/

/-- The host operation before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (Vl m) R

/-- The host operations after the region, over the unscoped buffers as the region leaves them. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Wv m) R

set_option backward.isDefEq.respectTransparency.types false in
/-- The region. It is entered from every unscoped buffer at the contents the first host operation left: the array of
    points is split in two halves, one per input window; the result's array enters whole; every other buffer bypasses
    the region. The invariant is the accumulator (a scoped buffer). At the exit the two halves are joined again and
    the result's array is held at what the last point wrote back. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (Vl m c)) ∗ R c)
  post c := iprop(StableHlo.held (c : Thread nD τ) (Pipeline.ucRefs τ sig) (Wv m c) ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (StableHlo.after hostOps0 (Vl m c)) = unscopedBufs c (V m c) from (Pipeline.unscopedBufs_held c _).symm,
      Pipeline.unscopedBufs_split₀ cfgs 0 (fun w => by fin_cases w <;> rfl) c (V m c), arrBufs_eq, arrays_eq]
    iintro ⟨⟨⟨⟨H0, H1⟩, Hr⟩, HO⟩, -, -⟩
    ihave Hs := (pointsTo_share (PosShare.mem_left_op_right fullShare)).1 $$ H0
    icases Hs with ⟨Hl, Hrt⟩
    imodintro
    isplitl [Hl Hrt H1]
    · rw [show (dats m 0 c).arrAt 0 0 = V m c main_v0 from arrAt0 m c 0, show (dats m 0 c).arrAt 1 0 = V m c main_v0 from arrAt1 m c 0]
      isplitl [Hl]; · iexact Hl
      isplitl [Hrt]; · iexact Hrt
      iexact H1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = PhiS m c 0 from rfl, show PhiS m c 0 = iprop(∃ d, owns (c : Thread nD τ) scM fullShare d) from rfl, scopedRest0_eq]
    iintro ⟨-, -, ⟨%f, Hs⟩⟩
    iexists f
    rw [owns_whole]
    iexact Hs
  hout c := by
    rw [Pipeline.ownSems0_none, show (dats m 0 c).Φ (Fin.last cfg0.N) = PhiS m c 64 from rfl,
      show PhiS m c 64 = owns (c : Thread nD τ) scM fullShare (accAt (pts m c) 64) from rfl, scopedRest0_eq, owns_whole]
    iintro Hs
    isplitr; · iempintro
    isplitr; · iempintro
    iexists _; iexact Hs
  hexit c := by
    rw [arrays_eq, show (dats m 0 c).arrAt 0 cfg0.N = V m c main_v0 from arrAt0 m c _, show (dats m 0 c).arrAt 1 cfg0.N = V m c main_v0 from arrAt1 m c _,
      show StableHlo.held (c : Thread nD τ) (Pipeline.ucRefs τ sig) (Wv m c) = unscopedBufs c (fun b => Wv m c (Proc.devRef .tc b)) from (Pipeline.unscopedBufs_held c _).symm,
      Pipeline.unscopedBufs_split₀ cfgs 0 (fun w => by fin_cases w <;> rfl) c (fun b => Wv m c (Proc.devRef .tc b)), arrBufs_eq,
      unscopedRest0_eq, unscopedRest0_eq]
    simp only [Wv_v1, Wv_of_ne m c main_v0 (by decide), Wv_of_ne m c main_arg0 (by decide), Wv_of_ne m c main_v2 (by decide), Wv_of_ne m c main_cst (by decide),
      Wv_of_ne m c main_v3 (by decide), Wv_of_ne m c main_cst_0 (by decide), Wv_of_ne m c main_v4 (by decide), Wv_of_ne m c main_cst_1 (by decide), Wv_of_ne m c main_v5 (by decide)]
    iintro ⟨⟨Hl, Hrt, H1⟩, HO, -, Hr⟩
    ihave H0 := (pointsTo_share (PosShare.mem_left_op_right fullShare)).2 $$ [Hl Hrt]
    · isplitl [Hl] <;> iassumption
    imodintro
    isplitr [HO]
    · isplitr [Hr]
      · isplitl [H0]; · iexact H0
        iexact H1
      iexact Hr
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- The launch element: the pipeline library's at the staging cells. -/
def u₀ : UR sig nD τ := initOf (Pipeline.cells cfgs cellOf_inj) (Pipeline.launchToks cfgs cellOf_inj)

/-- What the run leaves: every unscoped buffer at the contents the last host operations compute from the region's exit. -/
abbrev Tₙ (c : Dev nD) : sProp 𝕄 := StableHlo.held (c : Thread nD τ) (Pipeline.ucRefs τ sig) (StableHlo.after hostOps1 (Wv m c))

/-- The final contents of a TensorCore buffer. -/
abbrev fin (c : Dev nD) (b : Ref sig .tc) : Buf (Elt F) ((c : Thread nD τ).loc b) := StableHlo.after hostOps1 (Wv m c) (Proc.devRef .tc b)

set_option backward.isDefEq.respectTransparency.types false in
/-- At the compiled mesh, from any memory with zero counters: every weakly fair execution of @main on the TensorCores
    terminates, and every final state has the result and the argument at the contents the three segments compute. -/
theorem run_main : θ_run defs (onTc (τ := τ) (main (F := F))) ⟨m, fun _ => 0, ρ⟩ (fun r => ∀ c : Dev nD,
      r.2.mem ((c.tc : Thread nD τ).loc main_v5) = fin m c main_v5
      ∧ r.2.mem ((c.tc : Thread nD τ).loc main_arg0) = fin m c main_arg0) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, -, -⟩, -⟩
      imodintro
      isplitl [Hh]; · iexact Hh
      iexists ∅; iexact HO)
    (QY := fun c s => s.mem ((c.tc : Thread nD τ).loc main_v5) = fin m c main_v5 ∧ s.mem ((c.tc : Thread nD τ).loc main_arg0) = fin m c main_arg0)
    (hfin := fun c s' => by
      dsimp only [Tₙ]
      rw [show StableHlo.held (c : Thread nD τ) (Pipeline.ucRefs τ sig) (StableHlo.after hostOps1 (Wv m c)) = unscopedBufs c (fun b => fin m c b) from (Pipeline.unscopedBufs_held c _).symm,
        Pipeline.unscopedBufs_split₀ cfgs 0 (fun w => by fin_cases w <;> rfl) c (fun b => fin m c b), unscopedRest0_eq]
      iintro ⟨⟨-, Ha0, -, -, -, -, -, -, H5⟩, HSI⟩
      icombine HSI H5 gives %h5
      icombine HSI Ha0 gives %h0
      imodintro
      isplitr; · ipureintro; exact ⟨Buf.eq_of_forall_mem_univ h5, Buf.eq_of_forall_mem_univ h0⟩
      iexact HSI)
    (hQ := fun _ h => h)

end Cert.KernelIdeal.Run

end
-- ==== Proof.FrameIdeal.lean ====
/-
  The idealized kernel program's frame: its run ends with the argument array as launched.
-/
import proofs.«129650_j84731114815830_1_alg».proof.Proof.RunIdeal

set_option maxRecDepth 16384

noncomputable section

namespace Cert.KernelIdeal.Run

open Cert.KernelIdeal Cert.KernelIdeal.Gen Cert.KernelIdeal.Body Cert.KernelIdeal.Tiles Cert.KernelIdeal.Points
open Idealize.ShloMosaic Idealize.ShloMosaic.TcCoe Idealize.ShloMosaic.ValueIdx
open Idealize.SL Idealize.SL.Sem

variable {F : FTy → Type} [FloatOps F]

variable (m : (ℓ : Loc nD τ sig) → Buf (Elt F) ℓ) (ρ : Dev nD → PrngReg)

/-! ## The argument reaches the end as launched -/

/-- No host operation writes the argument, and the region does not hold it: it ends as it was launched. -/
theorem fin_arg0 (c : Dev nD) : fin m c main_arg0 = m ((c : Thread nD τ).loc main_arg0) := by
  show StableHlo.after hostOps1 (Wv m c) (Proc.devRef .tc main_arg0) = _
  rw [StableHlo.after_of_forall_not_mem (b := Proc.devRef .tc main_arg0) hostOps1 (Wv m c) (fun op hop => by
    simp only [hostOps1, List.mem_cons, List.mem_nil_iff, or_false] at hop
    rcases hop with rfl | rfl | rfl | rfl | rfl | rfl | rfl <;>
      simp only [StableHlo.unary_writes, StableHlo.binary_writes, StableHlo.nullary_writes, StableHlo.reshape_writes, Finset.mem_singleton] <;>
      exact StableHlo.devRef_ne_of_ne (by decide)), Wv_of_ne m c main_arg0 (by decide)]
  show StableHlo.after hostOps0 (Vl m c) (Proc.devRef .tc main_arg0) = _
  rw [StableHlo.after_of_forall_not_mem (b := Proc.devRef .tc main_arg0) hostOps0 (Vl m c) (fun op hop => by
    simp only [hostOps0, List.mem_cons, List.mem_nil_iff, or_false] at hop
    rcases hop with rfl
    simp only [StableHlo.reshape_writes, Finset.mem_singleton]
    exact StableHlo.devRef_ne_of_ne (by decide))]

/-- The frame: every weakly fair execution terminates, nothing faulting, with the argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2).trans (fin_arg0 m c)) (run_main m ρ)

end Cert.KernelIdeal.Run

end
-- ==== Proof.Penalty.lean ====
/-
  The quantity both programs compute, stated once over the extended reals.

  The input is 4096 points of three coordinates (a [4096, 3] array `x`, read as `rows x p k`). For an ordered pair
  p < q the squared distance is s = ∑ₖ (x p k − x q k)², the distance d = √s, and the pair is charged
  max(lo − d, 0) + max(d − hi, 0): how far it falls below the lower threshold plus how far it exceeds the upper one.
  The result is the sum of the charges over all pairs p < q divided by the number of pairs.
  The three constants are kept as the f32 words the two programs share, so they are never evaluated.
-/
import Idealize.ShloMosaic.PureOps.Ideal
import Idealize.ShloMosaic.PureOps.Ideal.Laws
import Idealize.ShloMosaic.Lib.ValueIdx

noncomputable section

namespace Cert.Penalty

open Idealize.ShloMosaic Idealize.ShloMosaic.ValueIdx

/-- The lower threshold, the upper threshold and the number of pairs, as the words the programs carry. -/
abbrev lo : EReal := Ideal.ofBits .f32 0x3F666666#32
abbrev hi : EReal := Ideal.ofBits .f32 0x40000000#32
abbrev pairs : EReal := Ideal.ofBits .f32 0x4AFFF000#32

/-- A [4096, 3] array read by row and coordinate. -/
def rows (x : (⟨2, ![4096, 3]⟩ : Shape).Idx → EReal) : Fin 4096 → Fin 3 → EReal := fun p k => x (ix2 p k)

/-- The squared distance between rows `p` and `q`. -/
def sqDist (g : Fin 4096 → Fin 3 → EReal) (p q : Fin 4096) : EReal :=
  ∑ k : Fin 3, (g p k - g q k) * (g p k - g q k)

/-- The charge of a pair at squared distance `s`: the shortfall below `lo` plus the excess above `hi` of `√s`. -/
def charge (s : EReal) : EReal := max (lo - Ideal.sqrt s) 0 + max (Ideal.sqrt s - hi) 0

/-- The charges summed over the ordered pairs p < q. -/
def total (g : Fin 4096 → Fin 3 → EReal) : EReal :=
  ∑ p : Fin 4096, ∑ q : Fin 4096, if p < q then charge (sqDist g p q) else 0

/-- The mean charge per pair. -/
def mean (g : Fin 4096 → Fin 3 → EReal) : EReal := Ideal.div (total g) pairs

end Cert.Penalty

end
-- ==== Proof.TileSum.lean ====
/-
  The accumulation over the 64 grid points: the tiles' sums add up to the sum over all ordered pairs.

  The accumulator is a one-element array. It starts at zero; every grid point (I, J) with I ≤ J adds to it the sum of
  its 512 × 512 tile. Given that the tile's entry at (a, b) is the charge of the pair (512·I + a, 512·J + b) when that
  pair is increasing and zero otherwise, the tiles with I > J are identically zero, so the accumulator after all 64
  points is the sum over all (I, J, a, b), which re-indexed by p = 512·I + a, q = 512·J + b is the sum of the charges
  over all pairs p < q.
-/
import proofs.«129650_j84731114815830_1_alg».proof.Proof.Tiles
import proofs.«129650_j84731114815830_1_alg».proof.Proof.Penalty
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileSum

open Idealize.ShloMosaic Idealize.ShloMosaic.ValueIdx Cert.KernelIdeal Cert.KernelIdeal.Gen Cert.KernelIdeal.Tiles

/-- The initial accumulator is the constant zero. -/
theorem pay1_eq : k0_pay1 (F := Ideal) = fun _ => (0 : EReal) := by
  unfold k0_pay1
  dsimp only
  rw [shapeCast_self]
  funext i
  exact Ideal.ofBits_zero_f32

/-- A shape cast keeps the total: the sum over the cast array is the sum over the operand. -/
theorem sum_shapeCast {s t : Shape} (v : s.Idx → EReal) (h : s.ShapeCasts t) :
    ∑ j : t.Idx, shapeCast t v h j = ∑ i : s.Idx, v i := by
  unfold shapeCast
  exact Equiv.sum_comp (Shape.reshapeEquiv h) v

/-- One accumulation step: the accumulator's entry plus the sum of the tile over both axes. -/
theorem pay2_eq (v : FVec Ideal S512x512 .f32) (acc : Vec Ideal S1x1 .f32) :
    k0_pay2 (F := Ideal) v acc = fun j => acc j + ∑ a : Fin 512, ∑ b : Fin 512, v (ix2 a b) := by
  unfold k0_pay2
  dsimp only
  rw [shapeCast_self]
  funext j
  rw [addf_apply, broadcast_apply]
  refine congrArg (fun t => acc j + t) ?_
  exact (Ideal.multiReduction_add_total (shapeCast S1x512x512 v shapeCasts_S512x512_S1x512x512) 0x00000000#32
    reduces_S1x512x512_S1 (by decide) (.inl rfl) rfl _).trans ((sum_shapeCast v _).trans (sum_idx2 v))

/-- The sum of the tile at grid coordinates (I, J) over both of its axes. -/
def tileSum (x : Vec Ideal S4096x3 .f32) (I J : Fin 8) : EReal :=
  ∑ a : Fin 512, ∑ b : Fin 512,
    k0_pay3 (F := Ideal) (BitVec.ofNat 32 I.val) (BitVec.ofNat 32 J.val) (rowsBlock x I) (rowsBlock x J) (ix2 a b)

/-- The same over natural coordinates, zero outside the 8 × 8 grid. -/
def tileSumN (x : Vec Ideal S4096x3 .f32) (i j : Nat) : EReal :=
  if h : i < 8 ∧ j < 8 then tileSum x ⟨i, h.1⟩ ⟨j, h.2⟩ else 0

theorem tileSumN_fin (x : Vec Ideal S4096x3 .f32) (I J : Fin 8) : tileSumN x I.val J.val = tileSum x I J := by
  unfold tileSumN
  rw [dif_pos ⟨I.isLt, J.isLt⟩]

/-- One step adds the tile's sum to the accumulator. -/
theorem tileStep_eq (x : Vec Ideal S4096x3 .f32) (I J : Fin 8) (s : EReal) :
    tileStep (F := Ideal) x I J (fun _ => s) = fun _ => s + tileSum x I J := by
  unfold tileStep
  rw [pay2_eq]
  rfl

theorem accAt_succ (x : Vec Ideal S4096x3 .f32) (n : Nat) :
    accAt (F := Ideal) x (n + 1)
      = if h : n / 8 ≤ n % 8 ∧ n / 8 < 8 then
          tileStep x ⟨n / 8, h.2⟩ ⟨n % 8, Nat.mod_lt _ (by decide)⟩ (accAt x n)
        else accAt x n := rfl

/-- The accumulator after the first `n` grid points: the sum of the tiles of the points among them with I ≤ J. -/
theorem accAt_eq (x : Vec Ideal S4096x3 .f32) (n : Nat) :
    accAt (F := Ideal) x n
      = fun _ => ∑ k ∈ Finset.range n, (if k / 8 ≤ k % 8 then tileSumN x (k / 8) (k % 8) else 0) := by
  induction n with
  | zero =>
    show k0_pay1 (F := Ideal) = _
    rw [pay1_eq, Finset.sum_range_zero]
  | succ n ih =>
    rw [accAt_succ, Finset.sum_range_succ, ih]
    by_cases h : n / 8 ≤ n % 8 ∧ n / 8 < 8
    · rw [dif_pos h, tileStep_eq, if_pos h.1]
      have e := tileSumN_fin x ⟨n / 8, h.2⟩ ⟨n % 8, Nat.mod_lt _ (by decide)⟩
      rw [← e]
    · rw [dif_neg h]
      by_cases h1 : n / 8 ≤ n % 8
      · have h2 : ¬ (n / 8 < 8 ∧ n % 8 < 8) := fun hh => h ⟨h1, hh.1⟩
        rw [if_pos h1]
        unfold tileSumN
        rw [dif_neg h2, add_zero]
      · rw [if_neg h1, add_zero]

/-- A sum over the first 8·m naturals read by quotient and remainder is the double sum over the two. -/
theorem sum_range_div_mod (f : Nat → Nat → EReal) (m : Nat) :
    ∑ k ∈ Finset.range (8 * m), f (k / 8) (k % 8) = ∑ i ∈ Finset.range m, ∑ j ∈ Finset.range 8, f i j := by
  induction m with
  | zero => simp
  | succ m ih =>
    rw [show (8 * (m + 1) : Nat) = 8 * m + 8 from by omega, Finset.sum_range_add, ih,
      Finset.sum_range_succ (fun i => ∑ j ∈ Finset.range 8, f i j) m]
    have e : ∑ j ∈ Finset.range 8, f ((8 * m + j) / 8) ((8 * m + j) % 8) = ∑ j ∈ Finset.range 8, f m j := by
      refine Finset.sum_congr rfl fun j hj => ?_
      have hj' : j < 8 := Finset.mem_range.1 hj
      rw [show (8 * m + j) / 8 = m from by omega, show (8 * m + j) % 8 = j from by omega]
    rw [e]

/-- A tile strictly below the diagonal of the grid is identically zero, so its sum is zero. -/
theorem tileSum_lower (x : Vec Ideal S4096x3 .f32) (g : Fin 4096 → Fin 4096 → EReal)
    (htile : ∀ (I J : Fin 8) (a b : Fin 512),
      k0_pay3 (F := Ideal) (BitVec.ofNat 32 I.val) (BitVec.ofNat 32 J.val) (rowsBlock x I) (rowsBlock x J) (ix2 a b)
        = if rowOf I a < rowOf J b then g (rowOf I a) (rowOf J b) else 0)
    (I J : Fin 8) (hIJ : ¬ I ≤ J) : tileSum x I J = 0 := by
  unfold tileSum
  refine Finset.sum_eq_zero fun a _ => Finset.sum_eq_zero fun b _ => ?_
  rw [htile, if_neg]
  intro hlt
  have h1 : (rowOf I a).val < (rowOf J b).val := hlt
  have h2 : J.val < I.val := Nat.lt_of_not_le hIJ
  have := b.isLt
  simp only [rowOf] at h1
  omega

/-- Rows are numbered by block and position in the block: (I, a) ↦ 512·I + a is a bijection onto the 4096 rows. -/
def rowEquiv : Fin 8 × Fin 512 ≃ Fin 4096 where
  toFun p := rowOf p.1 p.2
  invFun r := (⟨r.val / 512, by have := r.isLt; omega⟩, ⟨r.val % 512, Nat.mod_lt _ (by decide)⟩)
  left_inv p := by
    obtain ⟨I, a⟩ := p
    have := I.isLt; have := a.isLt
    refine Prod.ext (Fin.ext ?_) (Fin.ext ?_)
    · show (512 * I.val + a.val) / 512 = I.val
      omega
    · show (512 * I.val + a.val) % 512 = a.val
      omega
  right_inv r := by
    refine Fin.ext ?_
    show 512 * (r.val / 512) + r.val % 512 = r.val
    omega

/-- A sum over blocks and positions in the block is the sum over the rows. -/
theorem sum_rowOf (h : Fin 4096 → EReal) : ∑ I : Fin 8, ∑ a : Fin 512, h (rowOf I a) = ∑ p : Fin 4096, h p := by
  rw [← Equiv.sum_comp rowEquiv h, Fintype.sum_prod_type]
  rfl

/-- The four-fold sum over two blocks and two positions is the double sum over pairs of rows. -/
theorem sum_rowOf_pair (f : Fin 4096 → Fin 4096 → EReal) :
    ∑ I : Fin 8, ∑ J : Fin 8, ∑ a : Fin 512, ∑ b : Fin 512, f (rowOf I a) (rowOf J b)
      = ∑ p : Fin 4096, ∑ q : Fin 4096, f p q := by
  rw [← sum_rowOf fun p => ∑ q : Fin 4096, f p q]
  refine Finset.sum_congr rfl fun I _ => ?_
  rw [Finset.sum_comm]
  refine Finset.sum_congr rfl fun a _ => ?_
  exact sum_rowOf fun q => f (rowOf I a) q

/-- After all 64 grid points the accumulator holds the charges summed over all ordered pairs of rows. -/
theorem accAt_total (x : Vec Ideal S4096x3 .f32)
    (htile : ∀ (I J : Fin 8) (a b : Fin 512),
      k0_pay3 (F := Ideal) (BitVec.ofNat 32 I.val) (BitVec.ofNat 32 J.val) (rowsBlock x I) (rowsBlock x J) (ix2 a b)
        = if rowOf I a < rowOf J b then
            Cert.Penalty.charge (Cert.Penalty.sqDist (Cert.Penalty.rows x) (rowOf I a) (rowOf J b))
          else 0) :
    accAt (F := Ideal) x 64 = fun _ => Cert.Penalty.total (Cert.Penalty.rows x) := by
  rw [accAt_eq]
  funext _
  have e64 : (64 : Nat) = 8 * 8 := rfl
  rw [e64, sum_range_div_mod (fun i j => if i ≤ j then tileSumN x i j else 0) 8, Finset.sum_range]
  have step1 : ∀ I : Fin 8,
      ∑ j ∈ Finset.range 8, (if I.val ≤ j then tileSumN x I.val j else 0) = ∑ J : Fin 8, tileSum x I J := by
    intro I
    rw [Finset.sum_range]
    refine Finset.sum_congr rfl fun J _ => ?_
    by_cases hIJ : I.val ≤ J.val
    · rw [if_pos hIJ, tileSumN_fin]
    · rw [if_neg hIJ]
      exact (tileSum_lower x
        (fun p q => Cert.Penalty.charge (Cert.Penalty.sqDist (Cert.Penalty.rows x) p q)) htile I J
        (fun hle => hIJ hle)).symm
  rw [Finset.sum_congr rfl fun I _ => step1 I]
  unfold Cert.Penalty.total
  rw [← sum_rowOf_pair fun p q =>
    if p < q then Cert.Penalty.charge (Cert.Penalty.sqDist (Cert.Penalty.rows x) p q) else 0]
  refine Finset.sum_congr rfl fun I _ => Finset.sum_congr rfl fun J _ => ?_
  unfold tileSum
  exact Finset.sum_congr rfl fun a _ => Finset.sum_congr rfl fun b _ => htile I J a b

end Cert.KernelIdeal.TileSum

end
-- ==== Proof.TileEntry.lean ====
/-
  One entry of one tile of the kernel's body, at the ideal values.

  At grid coordinates (I, J) the body sees two [512, 3] blocks, g = rows 512·I … 512·I+511 and h = rows 512·J … 512·J+511
  of the [4096, 3] array of points. Entry (a, b) of the value it accumulates is

      select (512·I + a < 512·J + b,  max (lo − d, 0) + max (d − hi, 0),  0),   d = √ (max (nₐ + n_b − 2·c_ab, 0)),

  with nₐ = ∑ₖ g a k², n_b = ∑ₖ h b k² (a sum over the axis of extent 3, kept as a column, the second one transposed to
  a row, both broadcast to [512, 512]) and c_ab = ∑ₖ g a k · h b k (the block product of g with the transpose of h into
  a zero accumulator). This module reads each of those operations at the index (a, b):
  • the lane sum, the column cast, the column broadcast (`rowSq_apply`, `colCast_apply`, `colBroadcast_apply`);
  • the block product, its contraction index re-indexed by its one coordinate (`cross_apply`);
  • the mask: 512·I + a and 512·J + b, computed on 32-bit words, are below 4096 < 2³¹, so their signed comparison is
    the comparison of the row numbers (`rowWord`, `slt_ofNat`, `mask_apply`);
  • the arithmetic: when rows a of g and b of h are real, nₐ + n_b − 2·c_ab = ∑ₖ (g a k − h b k)² in ℝ, a sum of
    squares, so the maximum against zero is the sum itself (`sq_expand`; the word 0x40000000 is the real 2 there,
    `two_eq`, and stays a word where it is the upper threshold).
  `pay3_entry` assembles them over any two blocks; `tile_entry` is it at the blocks of an all-real array, where the
  sum of squares is the specification's squared distance of array rows 512·I + a and 512·J + b.
-/
import proofs.«129650_j84731114815830_1_alg».proof.Proof.Tiles
import proofs.«129650_j84731114815830_1_alg».proof.Proof.Penalty
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileEntry

open Idealize.ShloMosaic Idealize.ShloMosaic.ValueIdx Cert.KernelIdeal Cert.KernelIdeal.Gen Cert.KernelIdeal.Tiles

variable [Cert.KernelIdeal.Facts]

/-! ## The layout operations of the body, read at an index -/

/-- The sum over the three coordinates of the squares of row `a` of a [512, 3] block. -/
theorem rowSq_apply (g : FVec Ideal S512x3 .f32) (h : S512x3.Reduces [1] S512) (hφ : FKind.Formats .f32)
    (hacc : (0x00000000#32 : BitVec 32) = FKind.add.neutral .f32 hφ) (a : Fin 512) :
    multiReduction .add [1] S512 (mulf g g) 0x00000000#32 h hφ hacc (ix1 a)
      = ∑ k : Fin 3, g (ix2 a k) * g (ix2 a k) := by
  refine (Ideal.multiReduction_add_single (mulf g g) 0x00000000#32 h hφ hacc (ix1 a)).trans ?_
  show ∑ k : Fin 3, mulf g g (h.lift (ix1 a) k) = _
  refine Finset.sum_congr rfl fun k _ => ?_
  have e : h.lift (ix1 a) k = ix2 a k := by
    funext d; refine Fin.ext ?_
    match d with
    | ⟨0, _⟩ => rfl
    | ⟨1, _⟩ => rfl
  rw [e]; rfl

/-- A [512] vector cast to a [512, 1] column reads, at `(a, u)`, the vector at `a`. -/
theorem colCast_apply {α : Type} (v : (⟨1, ![512]⟩ : Shape).Idx → α) (h : S512.ShapeCasts S512x1) (a : Fin 512) (u : Fin 1) :
    shapeCast S512x1 v h (ix2 a u) = v (ix1 a) :=
  shapeCast_apply v h _ _ (by
    have hu : u.val = 0 := by omega
    rw [Shape.rowMajor_val_two, Shape.rowMajor_val_one]
    show a.val = a.val * 1 + u.val
    rw [hu, Nat.mul_one, Nat.add_zero])

/-- A [512, 1] column broadcast to [512, 512] reads, at `(a, b)`, the column at `a`. -/
theorem colBroadcast_apply {α : Type} (v : (⟨2, ![512, 1]⟩ : Shape).Idx → α) (h : S512x1.Broadcasts S512x512) (a b : Fin 512) :
    broadcastTo S512x512 v h (ix2 a b) = v (ix2 a (0 : Fin 1)) := by
  refine broadcastTo_apply v h (ix2 a b) (ix2 a (0 : Fin 1)) fun ax => ?_
  match ax with
  | ⟨0, _⟩ => rfl
  | ⟨1, _⟩ => rfl

/-! ## The product block -/

/-- The block product of a [512, 3] block with the transpose of another, read at `(a, b)`: the inner product of row
    `a` of the first with row `b` of the second. -/
theorem cross_apply (g h : FVec Ideal S512x3 .f32) (ht : S512x3.Transposes [1, 0] S3x512) (a b : Fin 512) :
    matmul dot_S512x3_S3x512_S512x512_1_0_0_1_n_n none g (transpose S3x512 [1, 0] h ht)
        (constant (F := Ideal) S512x512 .f32 0x00000000#32) (ix2 a b)
      = ∑ k : Fin 3, g (ix2 a k) * h (ix2 b k) := by
  refine (Ideal.matmul_constant_zero_apply dot_S512x3_S3x512_S512x512_1_0_0_1_n_n none g _ (ix2 a b)).trans ?_
  rw [← Equiv.sum_comp (contrEquiv1 dot_S512x3_S3x512_S512x512_1_0_0_1_n_n 3 rfl rfl).symm]
  refine Finset.sum_congr rfl fun k _ => ?_
  have el : dot_S512x3_S3x512_S512x512_1_0_0_1_n_n.lhsIdx (ix2 a b)
      ((contrEquiv1 dot_S512x3_S3x512_S512x512_1_0_0_1_n_n 3 rfl rfl).symm k) = ix2 a k := by
    funext d; refine Fin.ext ?_
    match d with
    | ⟨0, _⟩ => rfl
    | ⟨1, _⟩ =>
      exact (DotDims.lhsIdx_val_of_single dot_S512x3_S3x512_S512x512_1_0_0_1_n_n (cl := (1 : Fin 2)) rfl _ _).trans
        (contrEquiv1_symm_val dot_S512x3_S3x512_S512x512_1_0_0_1_n_n 3 rfl rfl k)
  have er : dot_S512x3_S3x512_S512x512_1_0_0_1_n_n.rhsIdx (ix2 a b)
      ((contrEquiv1 dot_S512x3_S3x512_S512x512_1_0_0_1_n_n 3 rfl rfl).symm k) = ix2 k b := by
    funext d; refine Fin.ext ?_
    match d with
    | ⟨0, _⟩ =>
      exact (DotDims.rhsIdx_val_of_single dot_S512x3_S3x512_S512x512_1_0_0_1_n_n (cr := (0 : Fin 2)) rfl _ _).trans
        (contrEquiv1_symm_val dot_S512x3_S3x512_S512x512_1_0_0_1_n_n 3 rfl rfl k)
    | ⟨1, _⟩ => rfl
  rw [el, er, transpose_ix2_apply h ht k b]

/-! ## The mask -/

/-- Block number times 512 plus a position inside the block, computed on 32-bit words, is the word of the row number. -/
theorem rowWord (I : Fin 8) (a : Fin 512) :
    IntOp.addi (Scalar.muli (BitVec.ofNat 32 I.val) 512#32) (BitVec.ofNat 32 (0 * 512 + a.val))
      = BitVec.ofNat 32 (rowOf I a).val := by
  have hI := I.isLt
  have ha := a.isLt
  apply BitVec.eq_of_toNat_eq
  show ((BitVec.ofNat 32 I.val * 512#32) + BitVec.ofNat 32 (0 * 512 + a.val)).toNat = (BitVec.ofNat 32 (512 * I.val + a.val)).toNat
  simp only [BitVec.toNat_add, BitVec.toNat_mul, BitVec.toNat_ofNat]
  omega

/-- The signed comparison of the words of two numbers below 2³¹ is the comparison of the numbers. -/
theorem slt_ofNat (n m : Nat) (hn : n < 2147483648) (hm : m < 2147483648) :
    IntOp.cmpi .slt (BitVec.ofNat 32 n) (BitVec.ofNat 32 m) = if n < m then 1#1 else 0#1 := by
  show BitVec.ofBool ((BitVec.ofNat 32 n).slt (BitVec.ofNat 32 m)) = _
  have hn' : (BitVec.ofNat 32 n).toInt = (n : Int) := by
    rw [BitVec.toInt_eq_toNat_cond, BitVec.toNat_ofNat]
    have : n % 2 ^ 32 = n := Nat.mod_eq_of_lt (by omega)
    rw [this, if_pos (by omega)]
  have hm' : (BitVec.ofNat 32 m).toInt = (m : Int) := by
    rw [BitVec.toInt_eq_toNat_cond, BitVec.toNat_ofNat]
    have : m % 2 ^ 32 = m := Nat.mod_eq_of_lt (by omega)
    rw [this, if_pos (by omega)]
  rw [BitVec.slt, hn', hm']
  by_cases h : n < m
  · rw [if_pos h, decide_eq_true (by omega)]; rfl
  · rw [if_neg h, decide_eq_false (by omega)]; rfl

/-- The body's mask at `(a, b)` of the tile at grid coordinates `(I, J)`: row `512·I + a` against row `512·J + b`. -/
theorem mask_apply (I J : Fin 8) (a b : Fin 512) (h0 : S512x512.Iotas .tc 32 [0]) (h1 : S512x512.Iotas .tc 32 [1]) :
    cmpi .slt
        (addi (broadcast S512x512 (Scalar.muli (BitVec.ofNat 32 I.val) 512#32)) (iota .tc S512x512 32 [0] h0))
        (addi (broadcast S512x512 (Scalar.muli (BitVec.ofNat 32 J.val) 512#32)) (iota .tc S512x512 32 [1] h1)) (ix2 a b)
      = if rowOf I a < rowOf J b then 1#1 else 0#1 := by
  show IntOp.cmpi .slt
      (IntOp.addi (Scalar.muli (BitVec.ofNat 32 I.val) 512#32) (BitVec.ofNat 32 (0 * 512 + a.val)))
      (IntOp.addi (Scalar.muli (BitVec.ofNat 32 J.val) 512#32) (BitVec.ofNat 32 (0 * 512 + b.val))) = _
  rw [rowWord, rowWord]
  have hp := (rowOf I a).isLt
  have hq := (rowOf J b).isLt
  exact slt_ofNat _ _ (by omega) (by omega)

/-! ## The arithmetic of one entry -/

/-- The word `0x40000000` is the real 2. -/
theorem two_eq : Ideal.ofBits .f32 0x40000000#32 = ((2 : ℝ) : EReal) := by
  simp [Ideal.ofBits, Ideal.ieee, -EReal.coe_mul]; norm_num

/-- For real rows `p`, `q`: |p|² + |q|² − 2·⟨p, q⟩, cut off below at zero, is the squared distance ∑ₖ (pₖ − qₖ)². -/
theorem sq_expand (p q : Fin 3 → ℝ) :
    max ((∑ k, (p k : EReal) * (p k : EReal)) + (∑ k, (q k : EReal) * (q k : EReal))
          - Ideal.ofBits .f32 0x40000000#32 * ∑ k, (p k : EReal) * (q k : EReal)) (Ideal.ofBits .f32 0x00000000#32)
      = ∑ k, ((p k : EReal) - (q k : EReal)) * ((p k : EReal) - (q k : EReal)) := by
  rw [two_eq, Ideal.ofBits_zero_f32, Fin.sum_univ_three, Fin.sum_univ_three, Fin.sum_univ_three, Fin.sum_univ_three]
  simp only [← EReal.coe_mul, ← EReal.coe_add, ← EReal.coe_sub]
  have e : p 0 * p 0 + p 1 * p 1 + p 2 * p 2 + (q 0 * q 0 + q 1 * q 1 + q 2 * q 2)
        - 2 * (p 0 * q 0 + p 1 * q 1 + p 2 * q 2)
      = (p 0 - q 0) * (p 0 - q 0) + (p 1 - q 1) * (p 1 - q 1) + (p 2 - q 2) * (p 2 - q 2) := by ring
  rw [e]
  exact max_eq_left (EReal.coe_nonneg.mpr
    (add_nonneg (add_nonneg (mul_self_nonneg _) (mul_self_nonneg _)) (mul_self_nonneg _)))

/-! ## One entry of the payload -/

/-- A square root at an index is the square root of the element. -/
theorem sqrt_apply {s : Shape} {φ : FTy} (x : FVec Ideal s φ) (i : s.Idx) : sqrt x i = Ideal.sqrt (x i) := rfl

/-- The payload at `(a, b)`, over any two blocks whose rows `a` and `b` are real: the charge of the squared distance of
    the two rows where the first row's number is below the second's, zero elsewhere. -/
theorem pay3_entry (I J : Fin 8) (g h : FVec Ideal S512x3 .f32) (a b : Fin 512)
    (hg : ∀ k : Fin 3, ∃ r : ℝ, g (ix2 a k) = (r : EReal)) (hh : ∀ k : Fin 3, ∃ r : ℝ, h (ix2 b k) = (r : EReal)) :
    k0_pay3 (F := Ideal) (BitVec.ofNat 32 I.val) (BitVec.ofNat 32 J.val) g h (ix2 a b)
      = if rowOf I a < rowOf J b then
          Cert.Penalty.charge (∑ k : Fin 3, (g (ix2 a k) - h (ix2 b k)) * (g (ix2 a k) - h (ix2 b k)))
        else 0 := by
  choose p hp using hg
  choose q hq using hh
  have hNa : broadcastTo S512x512 (shapeCast S512x1 (multiReduction .add [1] S512 (mulf g g) 0x00000000#32
      reduces_S512x3_S512 (.inl rfl) rfl) shapeCasts_S512_S512x1) broadcasts_S512x1_S512x512 (ix2 a b)
      = ∑ k, (p k : EReal) * (p k : EReal) := by
    rw [colBroadcast_apply, colCast_apply]
    refine (rowSq_apply g _ _ _ a).trans ?_
    exact Finset.sum_congr rfl fun k _ => by rw [hp k]
  have hNb : broadcastTo S512x512 (transpose S1x512 [1, 0] (shapeCast S512x1 (multiReduction .add [1] S512 (mulf h h)
      0x00000000#32 reduces_S512x3_S512 (.inl rfl) rfl) shapeCasts_S512_S512x1) transposes_S512x1_p1_0_S1x512)
      broadcasts_S1x512_S512x512 (ix2 a b)
      = ∑ k, (q k : EReal) * (q k : EReal) := by
    rw [broadcastTo_1b_ab_apply, transpose_ix2_apply, colCast_apply]
    refine (rowSq_apply h _ _ _ b).trans ?_
    exact Finset.sum_congr rfl fun k _ => by rw [hq k]
  have hC : matmul dot_S512x3_S3x512_S512x512_1_0_0_1_n_n none g (transpose S3x512 [1, 0] h transposes_S512x3_p1_0_S3x512)
      (constant (F := Ideal) S512x512 .f32 0x00000000#32) (ix2 a b)
      = ∑ k, (p k : EReal) * (q k : EReal) := by
    rw [cross_apply]
    exact Finset.sum_congr rfl fun k _ => by rw [hp k, hq k]
  have hM := mask_apply I J a b iota_S512x512_d0_w32 iota_S512x512_d1_w32
  unfold k0_pay3
  rw [shapeCast_self g, shapeCast_self h]
  simp only [select_apply, addf_apply, maximumf_apply, subf_apply, mulf_apply, broadcast_apply, sqrt_apply]
  rw [hM, hNa, hNb, hC]
  simp only [Ideal.ofBits_def, hp, hq]
  rw [sq_expand p q, Ideal.ofBits_zero_f32]
  by_cases hlt : rowOf I a < rowOf J b
  · rw [if_pos hlt, if_pos hlt, select_one]; rfl
  · rw [if_neg hlt, if_neg hlt, select_zero]

/-- ONE ENTRY OF ONE TILE. At grid coordinates `(I, J)` the two blocks are rows 512·I … and 512·J … of the array, so entry
    `(a, b)` of the payload is the charge of the pair of array rows `(512·I + a, 512·J + b)` when the first is below the
    second, and zero otherwise. -/
theorem tile_entry (x : Vec Ideal S4096x3 .f32) (hfin : ∀ i, ∃ r : ℝ, x i = (r : EReal)) (I J : Fin 8) (a b : Fin 512) :
    k0_pay3 (F := Ideal) (BitVec.ofNat 32 I.val) (BitVec.ofNat 32 J.val) (rowsBlock x I) (rowsBlock x J) (ix2 a b)
      = if rowOf I a < rowOf J b then
          Cert.Penalty.charge (Cert.Penalty.sqDist (Cert.Penalty.rows x) (rowOf I a) (rowOf J b))
        else 0 :=
  pay3_entry I J (rowsBlock x I) (rowsBlock x J) a b (fun _ => hfin _) (fun _ => hfin _)

end Cert.KernelIdeal.TileEntry

end
-- ==== Proof.RefMean.lean ====
/-
  The reference program read back as the specification.

  The reference reshapes its argument to 4096 rows of three coordinates, forms every difference x p k − x q k, squares
  it and sums over k to the squared distance s p q. Its mask is "not (p ≥ q)", built from the two index arrays compared
  as signed 32-bit words; both indices are below 4096 < 2³¹, so that comparison is the comparison of p and q. On the
  mask it takes √s (off it, √1), then max(lo − √·, 0) and max(√· − hi, 0), each replaced by 0 off the mask; it sums
  each of the two arrays over all (p, q), divides each sum by the number of pairs, multiplies each quotient by 1 and
  adds them.

  Read at an index through the generated module's one-operation lemmas, each masked array is `if p < q then … else 0`
  and each total is a double sum over p and q. The divisor is the positive real 8386560, so dividing by it is
  multiplying by a nonnegative finite number, and in the extended reals such a product distributes over a sum whatever
  the summands are; the two double sums then add termwise to the charge of the specification. Nothing is assumed of the
  argument: no finiteness is used.
-/
import proofs.«129650_j84731114815830_1_alg».proof.Proof.Gen.ReferenceIdeal.Read
import proofs.«129650_j84731114815830_1_alg».proof.Proof.Penalty
import Idealize.ShloMosaic.Lib.ValueIdx
import Idealize.ShloMosaic.PureOps.Ideal.Laws

noncomputable section

namespace Cert.RefMean

open Idealize.ShloMosaic Idealize.ShloMosaic.ValueIdx Cert.ReferenceIdeal Cert.ReferenceIdeal.Gen
open Cert.ReferenceIdeal.Read Cert.Penalty Idealize.ShloMosaic.TcCoe Idealize.SL.Sem

/-- The word of `1.0` denotes `1`. -/
theorem ofBits_one : Ideal.ofBits .f32 0x3F800000#32 = 1 := by
  simp [Ideal.ofBits, Ideal.ieee, -EReal.coe_mul]; norm_num

/-- The word of the number of pairs denotes the real `8386560 = 4096 · 4095 / 2`. -/
theorem ofBits_pairs : Ideal.ofBits .f32 0x4AFFF000#32 = ((8386560 : ℝ) : EReal) := by
  simp [Ideal.ofBits, Ideal.ieee, -EReal.coe_mul]; norm_num

/-- Two naturals below `4096`, written as 32-bit words, compare signed as they compare. -/
theorem sle_ofNat {a b : Nat} (ha : a < 4096) (hb : b < 4096) :
    (BitVec.ofNat 32 b).sle (BitVec.ofNat 32 a) = decide (b ≤ a) := by
  have h1 : (BitVec.ofNat 32 a).toInt = (a : Int) := by
    rw [BitVec.toInt_eq_toNat_cond, BitVec.toNat_ofNat]; omega
  have h2 : (BitVec.ofNat 32 b).toInt = (b : Int) := by
    rw [BitVec.toInt_eq_toNat_cond, BitVec.toNat_ofNat]; omega
  rw [BitVec.sle, h1, h2]
  simp

/-- The mask at `(p, q)`: the bit `1` exactly when `p < q`. -/
theorem mask_apply (p q : Fin 4096) :
    val_main_v9 (F := Ideal) (ix2 p q) = if p < q then 1#1 else 0#1 := by
  rw [val_main_v9_apply, val_main_call0_v4_apply, val_main_call0_v2_apply, val_main_call0_v0_apply,
    val_main_call0_v3_apply, val_main_call0_v1_apply, val_main_call0_c_apply, val_main_call0_v5_apply,
    val_main_call0_c_0_apply, val_main_v8_apply, val_main_c_apply]
  show Scalar.select (IntOp.cmpi .sge (IntOp.addi (BitVec.ofNat 32 p.val) 0#32) (BitVec.ofNat 32 q.val)) 0#1 1#1 = _
  rw [IntOp.addi, BitVec.add_zero, IntOp.cmpi]
  show Scalar.select (BitVec.ofBool ((BitVec.ofNat 32 q.val).sle (BitVec.ofNat 32 p.val))) 0#1 1#1 = _
  rw [sle_ofNat p.isLt q.isLt]
  by_cases h : p < q
  · have : ¬ (q.val ≤ p.val) := by have := Fin.lt_def.mp h; omega
    rw [if_pos h, decide_eq_false this]; exact select_zero _ _
  · have : q.val ≤ p.val := by have := Fin.lt_def.not.mp h; omega
    rw [if_neg h, decide_eq_true this]; exact select_one _ _

/-- The argument array of the reference, and its reshape to `[4096, 3]` read by row and coordinate. -/
abbrev Arg : Type := (⟨S12288, .f32⟩ : BufTy).Contents (Elt Ideal)
abbrev pts (x0 : Arg) : Fin 4096 → Fin 3 → EReal := rows (val_main_v0 (F := Ideal) x0)

/-- The reduced square of the broadcast difference at `(p, q)` is the squared distance of rows `p` and `q`. -/
theorem sq_apply (x0 : Arg) (p q : Fin 4096) :
    val_main_v7 (F := Ideal) x0 (ix2 p q) = sqDist (pts x0) p q := by
  rw [val_main_v7_apply, val_main_cst_apply, Ideal.ofBits_def, Ideal.ofBits_zero_f32, zero_add]
  unfold sqDist pts rows
  refine Finset.sum_congr rfl fun k _ => ?_
  have e1 : idx_main_v1 (idx_main_v3 (idx_main_v7 (ix2 p q) k)) = ix2 p k := by
    funext a; match a with | ⟨0, _⟩ => rfl | ⟨1, _⟩ => rfl
  have e2 : idx_main_v2 (idx_main_v4 (idx_main_v7 (ix2 p q) k)) = ix2 q k := by
    funext a; match a with | ⟨0, _⟩ => rfl | ⟨1, _⟩ => rfl
  rw [val_main_v6_apply, val_main_v5_apply, val_main_v3_apply, val_main_v4_apply, val_main_v1_apply,
    val_main_v2_apply, e1, e2]
  rfl

/-- The guarded distance at `(p, q)`: the root of the squared distance on the pairs `p < q`, of `1` elsewhere. -/
theorem dist_apply (x0 : Arg) (p q : Fin 4096) :
    val_main_v11 (F := Ideal) x0 (ix2 p q)
      = Ideal.sqrt (if p < q then sqDist (pts x0) p q else 1) := by
  rw [val_main_v11_apply, Ideal.hostUnary_sqrt_def, val_main_v10_apply, mask_apply, sq_apply,
    val_main_call1_v1_apply, val_main_call1_v0_apply, val_main_cst_0_apply, Ideal.ofBits_def, ofBits_one]
  by_cases h : p < q
  · rw [if_pos h, if_pos h, select_one]
  · rw [if_neg h, if_neg h, select_zero]

/-- The masked shortfall below the lower threshold at `(p, q)`. -/
theorem below_apply (x0 : Arg) (p q : Fin 4096) :
    val_main_v15 (F := Ideal) x0 (ix2 p q)
      = if p < q then max (lo - Ideal.sqrt (sqDist (pts x0) p q)) 0 else 0 := by
  rw [val_main_v15_apply, mask_apply, val_main_v14_apply, val_main_v13_apply, val_main_v12_apply,
    val_main_cst_1_apply, dist_apply, val_main_call2_v0_apply, val_main_call2_cst_apply,
    val_main_call3_v1_apply, val_main_call3_v0_apply, val_main_cst_2_apply]
  simp only [Ideal.ofBits_def, Ideal.ofBits_zero_f32, Ideal.subf_def, Ideal.maximumf_def]
  by_cases h : p < q
  · simp only [if_pos h, select_one]
  · simp only [if_neg h, select_zero]

/-- The masked excess above the upper threshold at `(p, q)`. -/
theorem above_apply (x0 : Arg) (p q : Fin 4096) :
    val_main_v19 (F := Ideal) x0 (ix2 p q)
      = if p < q then max (Ideal.sqrt (sqDist (pts x0) p q) - hi) 0 else 0 := by
  rw [val_main_v19_apply, mask_apply, val_main_v18_apply, val_main_v17_apply, val_main_v16_apply,
    val_main_cst_3_apply, dist_apply, val_main_call4_v0_apply, val_main_call4_cst_apply,
    val_main_call5_v1_apply, val_main_call5_v0_apply, val_main_cst_4_apply]
  simp only [Ideal.ofBits_def, Ideal.ofBits_zero_f32, Ideal.subf_def, Ideal.maximumf_def]
  by_cases h : p < q
  · simp only [if_pos h, select_one]
  · simp only [if_neg h, select_zero]

/-- The first total: the masked shortfalls summed over all `(p, q)`. -/
theorem below_total (x0 : Arg) (i : S_.Idx) :
    val_main_v20 (F := Ideal) x0 i
      = ∑ p : Fin 4096, ∑ q : Fin 4096,
          if p < q then max (lo - Ideal.sqrt (sqDist (pts x0) p q)) 0 else 0 := by
  rw [val_main_v20_apply, val_main_cst_5_apply, Ideal.ofBits_def, Ideal.ofBits_zero_f32, zero_add, sum_idx2]
  exact Finset.sum_congr rfl fun p _ => Finset.sum_congr rfl fun q _ => below_apply x0 p q

/-- The second total: the masked excesses summed over all `(p, q)`. -/
theorem above_total (x0 : Arg) (i : S_.Idx) :
    val_main_v22 (F := Ideal) x0 i
      = ∑ p : Fin 4096, ∑ q : Fin 4096,
          if p < q then max (Ideal.sqrt (sqDist (pts x0) p q) - hi) 0 else 0 := by
  rw [val_main_v22_apply, val_main_cst_7_apply, Ideal.ofBits_def, Ideal.ofBits_zero_f32, zero_add, sum_idx2]
  exact Finset.sum_congr rfl fun p _ => Finset.sum_congr rfl fun q _ => above_apply x0 p q

/-- Dividing by the number of pairs distributes over a sum of two terms: the divisor is a positive real, so the
    division is the product with a nonnegative finite number. -/
theorem div_pairs_add (A B : EReal) :
    Ideal.div A pairs + Ideal.div B pairs = Ideal.div (A + B) pairs := by
  have hne : (8386560 : ℝ) ≠ 0 := by norm_num
  show Ideal.div A (Ideal.ofBits .f32 0x4AFFF000#32) + Ideal.div B (Ideal.ofBits .f32 0x4AFFF000#32)
    = Ideal.div (A + B) (Ideal.ofBits .f32 0x4AFFF000#32)
  rw [ofBits_pairs, Ideal.div_coe hne, Ideal.div_coe hne, Ideal.div_coe hne]
  refine (EReal.right_distrib_of_nonneg_of_ne_top ?_ (EReal.coe_ne_top _) A B).symm
  exact EReal.coe_nonneg.mpr (by norm_num)

/-- The reference's value, whatever the argument: the mean charge of its reshaped rows. -/
theorem val_eq (x0 : Arg) (i : S_.Idx) : val_main_v26 (F := Ideal) x0 i = mean (pts x0) := by
  rw [val_main_v26_apply, val_main_v24_apply, val_main_v25_apply, val_main_cst_9_apply, val_main_cst_10_apply,
    val_main_v21_apply, val_main_v23_apply, val_main_cst_6_apply, val_main_cst_8_apply, below_total, above_total]
  simp only [Ideal.ofBits_def, Ideal.addf_def, Ideal.mulf_def, Ideal.hostDivf_def, ofBits_one, one_mul]
  rw [show Ideal.ofBits .f32 0x4AFFF000#32 = pairs from rfl, div_pairs_add]
  unfold mean total
  congr 1
  rw [← Finset.sum_add_distrib]
  refine Finset.sum_congr rfl fun p _ => ?_
  rw [← Finset.sum_add_distrib]
  refine Finset.sum_congr rfl fun q _ => ?_
  by_cases h : p < q
  · simp only [if_pos h]; rfl
  · simp only [if_neg h, add_zero]

/-- THE REFERENCE READ BACK: its one result is, at its one index, the mean charge per pair of the argument read as
    4096 rows of three coordinates. -/
theorem res_eq (m : (ℓ : Loc nD τ sig) → Buf (Elt Ideal) ℓ) (c : Dev nD) :
    Cert.ReferenceIdeal.Value.res_out0 (F := Ideal) m c
      = fun _ => mean (rows (shapeCast S4096x3 (m ((c.tc : Thread nD τ).loc main_arg0))
          Facts₀.shapeCasts_S12288_S4096x3)) := by
  refine (val_main_v26_eq m c).trans ?_
  funext i
  exact val_eq _ i

end Cert.RefMean

end
-- ==== Proof.Tail.lean ====
/-
  The host operations after the kernel's region.

  The region leaves a [1, 1] array. The program reshapes it to a scalar, multiplies by 1, adds 0 and divides by the
  number of pairs. A [1, 1] array and a scalar each have exactly one entry, at row-major position 0, so the reshape
  read at the scalar's one index is the array's one entry; the word of 1.0 denotes 1 and the word of 0.0 denotes 0, so
  the product and the sum leave the entry unchanged, and what remains is the entry divided by the number of pairs.
-/
import proofs.«129650_j84731114815830_1_alg».proof.Proof.RefMean
import proofs.«129650_j84731114815830_1_alg».proof.Proof.Gen.KernelIdeal
import proofs.«129650_j84731114815830_1_alg».proof.Proof.Penalty
import Idealize.ShloMosaic.Lib.ValueIdx
import Idealize.ShloMosaic.Lib.Pipeline.Value
import Idealize.ShloMosaic.PureOps.Ideal.Laws

noncomputable section

namespace Cert.KernelIdeal.Tail

open Cert.KernelIdeal Idealize.ShloMosaic Idealize.ShloMosaic.ValueIdx

variable [Cert.KernelIdeal.Facts]

/-- The reshape of a [1, 1] array to a scalar, read at the scalar's index, is the array's one entry: both have a single
    element, so both row-major positions are 0. -/
theorem cast_apply (o : FVec Ideal S1x1 .f32) (j : S_.Idx) :
    shapeCast S_ o Facts₀.shapeCasts_S1x1_S_ j = o (ix2 (0 : Fin 1) (0 : Fin 1)) := by
  refine shapeCast_apply o _ j (ix2 (0 : Fin 1) (0 : Fin 1)) ?_
  have e1 : S1x1.numel = 1 := by decide
  have e2 : S_.numel = 1 := by decide
  have h1 := (S1x1.rowMajor (ix2 (0 : Fin 1) (0 : Fin 1))).isLt
  have h2 := (S_.rowMajor j).isLt
  omega

/-- THE TAIL: one times the reshaped result, plus zero, divided by the number of pairs, is the result's one entry
    divided by the number of pairs. -/
theorem tail_eq (o : FVec Ideal S1x1 .f32) :
    Host.divf (addf (mulf (constant (F := Ideal) S_ .f32 0x3F800000#32) (shapeCast S_ o Facts₀.shapeCasts_S1x1_S_))
        (constant (F := Ideal) S_ .f32 0x00000000#32)) (constant (F := Ideal) S_ .f32 0x4AFFF000#32)
      = fun _ => Ideal.div (o (ix2 (0 : Fin 1) (0 : Fin 1))) Cert.Penalty.pairs := by
  funext j
  show Ideal.div (Ideal.ofBits .f32 0x3F800000#32 * shapeCast S_ o Facts₀.shapeCasts_S1x1_S_ j
      + Ideal.ofBits .f32 0x00000000#32) (Ideal.ofBits .f32 0x4AFFF000#32) = _
  rw [cast_apply, Cert.RefMean.ofBits_one, Ideal.ofBits_zero_f32, one_mul, add_zero]

end Cert.KernelIdeal.Tail

end
-- ==== Proof.ResultIdeal.lean ====
/-
  What the idealized kernel program returns: the mean charge per pair of the reshaped argument.

  The region's one-element result is what the last grid point wrote back, the accumulator after all 64 points, which
  is the sum of the charges over all pairs p < q when every entry of the argument is a real number; the host
  operations after the region multiply it by one, add zero and divide by the number of pairs.
-/
import proofs.«129650_j84731114815830_1_alg».proof.Proof.FrameIdeal
import proofs.«129650_j84731114815830_1_alg».proof.Proof.TileSum
import proofs.«129650_j84731114815830_1_alg».proof.Proof.TileEntry
import proofs.«129650_j84731114815830_1_alg».proof.Proof.Tail
import Idealize.ShloMosaic.Lib.StableHlo.Run
import Idealize.ShloMosaic.Lib.Pipeline.Value

set_option maxRecDepth 16384

noncomputable section

namespace Cert.KernelIdeal.Result

open Cert.KernelIdeal Cert.KernelIdeal.Gen Cert.KernelIdeal.Body Cert.KernelIdeal.Tiles Cert.KernelIdeal.Points Cert.KernelIdeal.Run
open Idealize.ShloMosaic Idealize.ShloMosaic.TcCoe Idealize.ShloMosaic.ValueIdx Idealize.ShloMosaic.StableHlo
open Idealize.SL Idealize.SL.Sem
open Idealize.ShloMosaic.Pipeline (Dat)

variable (m : (ℓ : Loc nD τ sig) → Buf (Elt Ideal) ℓ) (ρ : Dev nD → PrngReg)

/-- The array of points the region finds is the argument reshaped into 4096 rows of 3. -/
theorem pts_eq (c : Dev nD) :
    pts m c = shapeCast S4096x3 (m ((c : Thread nD τ).loc main_arg0)) Facts₀.shapeCasts_S12288_S4096x3 := by
  show StableHlo.after hostOps0 (Vl m c) (Proc.devRef .tc main_v0) = _
  after_results
  rfl

/-- The result window's block index is (0, 0) at every point. -/
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The region leaves in its one-element result the accumulator after all 64 points: the one write-back, at the
    last point, covers the array. -/
theorem out_eq (c : Dev nD) : out m c = accAt (pts m c) 64 := by
  refine (dats m 0 c).arrAt_eq_of_cover 2 (accAt (pts m c) 64) (fun t hf => ?_) (fun i => ?_)
  · have h63 : t.val = 63 := by have := (flush0_2 t).mp hf; have := lt64 t; omega
    show (cfg0.win 2).cut (grid0.coords t) ((dats m 0 c).after 2 t) = _
    rw [after2, h63]
    funext y
    show accAt (pts m c) 64 y = accAt (pts m c) 64 (((cfg0.win 2).blk t).view.emb y)
    refine congrArg _ (funext fun a => Fin.ext ?_)
    match a with
    | ⟨0, _⟩ => show (y 0).val = win0_2.index t (0 : Fin 2) * 1 + 1 * (y 0).val; rw [(index2 t).1]; omega
    | ⟨1, _⟩ => show (y 1).val = win0_2.index t (1 : Fin 2) * 1 + 1 * (y 1).val; rw [(index2 t).2]; omega
  · have h64 : (63 : Nat) < cfg0.N := by rw [show cfg0.N = 64 from N_0]; decide
    refine ⟨⟨63, h64⟩, (flush0_2 ⟨63, h64⟩).mpr rfl, ?_⟩
    show i ∈ ((View.whole main_v1).slice (win0_2.rect ⟨63, h64⟩)).set
    rw [View.set_slice_whole, Rect.mem_set_unit]
    intro a
    match a with
    | ⟨0, _⟩ =>
      show win0_2.index ⟨63, h64⟩ (0 : Fin 2) * 1 ≤ (i 0).val ∧ (i 0).val < win0_2.index ⟨63, h64⟩ (0 : Fin 2) * 1 + 1
      have hi : (i 0).val < 1 := (i 0).isLt
      rw [(index2 ⟨63, h64⟩).1]; constructor <;> omega
    | ⟨1, _⟩ =>
      show win0_2.index ⟨63, h64⟩ (1 : Fin 2) * 1 ≤ (i 1).val ∧ (i 1).val < win0_2.index ⟨63, h64⟩ (1 : Fin 2) * 1 + 1
      have hi : (i 1).val < 1 := (i 1).isLt
      rw [(index2 ⟨63, h64⟩).2]; constructor <;> omega

/-- THE RESULT: with every entry of the argument a real number, the program returns the mean charge per pair. -/
theorem result_eq (c : Dev nD) (hfin : ∀ i, ∃ r : ℝ, m ((c : Thread nD τ).loc main_arg0) i = (r : EReal)) :
    fin m c main_v5 = fun _ => Cert.Penalty.mean (Cert.Penalty.rows
      (shapeCast S4096x3 (m ((c : Thread nD τ).loc main_arg0)) Facts₀.shapeCasts_S12288_S4096x3)) := by
  have e : fin m c main_v5 = Host.divf (addf (mulf (constant (F := Ideal) S_ .f32 0x3F800000#32) (shapeCast S_ (out m c) Facts₀.shapeCasts_S1x1_S_))
      (constant (F := Ideal) S_ .f32 0x00000000#32)) (constant (F := Ideal) S_ .f32 0x4AFFF000#32) := by
    show StableHlo.after hostOps1 (Wv m c) (Proc.devRef .tc main_v5) = _
    after_results
    rw [Wv_v1]
    rfl
  have hx : ∀ j, ∃ r : ℝ, (shapeCast S4096x3 (m ((c : Thread nD τ).loc main_arg0)) Facts₀.shapeCasts_S12288_S4096x3) j = (r : EReal) :=
    fun j => by unfold shapeCast; exact hfin _
  rw [e, Cert.KernelIdeal.Tail.tail_eq, out_eq, pts_eq,
    Cert.KernelIdeal.TileSum.accAt_total _ (fun I J a b => Cert.KernelIdeal.TileEntry.tile_entry _ hx I J a b)]
  rfl

end Cert.KernelIdeal.Result

end
-- ==== Proof.Finite.lean ====
/-
  The precondition read back: every entry of the input is a real number.

  The predicate takes |a i| < +∞ at every entry and folds the answers by `and`. If the result is 1 then every answer
  is 1, so |a i| = max (a i) (−a i) lies below +∞, which neither infinity does: the entry is a real.
-/
import proofs.«129650_j84731114815830_1_alg».proof.Pre_finite_inputs
import proofs.«129650_j84731114815830_1_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic Idealize.ShloMosaic.ValueIdx Cert.Pre_finite_inputs

variable [Cert.Pre_finite_inputs.Facts]

/-- A rank-0 shape has exactly one index. -/
instance : Subsingleton S_.Idx := ⟨fun a b => funext fun d => d.elim0⟩

/-- If the finiteness predicate answers 1, every entry of the array is a real number. -/
theorem entries_real (a : FVec Ideal S12288 .f32) (h : fn (F := Ideal) a = fun _ => 1#1) :
    ∀ i, ∃ r : ℝ, a i = (r : EReal) := by
  intro i
  have h0 := congrFun h ix0
  dsimp only [fn] at h0
  have hi := Host.reduce_andi_all _ _ _ _ _ h0 i
  have hi' : Ideal.cmp .olt (max (a i) (-(a i))) (Ideal.ofBits .f32 0x7F800000#32) = 1#1 := hi
  simp [Ideal.cmp, Ideal.ofBits, Ideal.ieee] at hi'
  clear hi h0
  generalize a i = x at hi' ⊢
  induction x using EReal.rec with
  | bot => simp at hi'
  | top => simp at hi'
  | coe r => exact ⟨r, rfl⟩

end Cert.Finite

end
-- ==== Proof.lean ====
/-
  The claim: a distance penalty over 4096 points in space, computed by a tiled kernel and by a plain reference.

  For an ordered pair of points p < q at distance d the charge is max(lo − d, 0) + max(d − hi, 0); both programs
  return the sum of the charges over all pairs divided by the number of pairs (`Cert.Penalty.mean`).

  The reference forms all 4096 × 4096 squared distances ∑ₖ (x p k − x q k)², masks the pairs with p < q, and sums the
  two kinds of charge separately, dividing each sum by the number of pairs; since every charge is non-negative the two
  quotients add up to the quotient of the joint sum, with no assumption on the input.

  The kernel walks an 8 × 8 grid of 512 × 512 tiles. In a tile it computes the squared distances as
  |x p|² + |x q|² − 2 x p · x q, clamped at zero — equal to ∑ₖ (x p k − x q k)², and non-negative, when the
  coordinates are real numbers, which is where the precondition (every input finite) is used —, masks the pairs with
  p < q, and adds the tile's sum to a one-element accumulator it carries from point to point; tiles strictly below
  the diagonal are skipped, and contain no pair with p < q. The last point copies the accumulator out; the host
  multiplies by one, adds zero and divides by the number of pairs.

  Each program's frame (it terminates, faults nowhere, leaves the argument as it found it) is read off its run: the
  kernel's, at both instances, is the run of @main as a host operation, the kernel region and seven host operations,
  the region's two input windows sharing one array at half a share each; the reference's is its generated run.
-/
import proofs.«129650_j84731114815830_1_alg».proof.Defs
import proofs.«129650_j84731114815830_1_alg».proof.Proof.Gen.Kernel
import proofs.«129650_j84731114815830_1_alg».proof.Proof.Gen.KernelIdeal
import proofs.«129650_j84731114815830_1_alg».proof.Proof.Gen.ReferenceIdeal
import proofs.«129650_j84731114815830_1_alg».proof.Proof.Gen.ReferenceIdeal.Run
import proofs.«129650_j84731114815830_1_alg».proof.Proof.Gen.Pre_finite_inputs
import proofs.«129650_j84731114815830_1_alg».proof.Proof.FrameBits
import proofs.«129650_j84731114815830_1_alg».proof.Proof.ResultIdeal
import proofs.«129650_j84731114815830_1_alg».proof.Proof.RefMean
import proofs.«129650_j84731114815830_1_alg».proof.Proof.Finite
import Idealize.ShloMosaic.Adequacy
import Idealize.ShloMosaic.Init

noncomputable section

namespace Cert.Proof

open Idealize.ShloMosaic Idealize.ShloMosaic.TcCoe Idealize.SL.Sem

/-- The kernel program as printed runs and leaves its argument unchanged. -/
theorem frame_kernel : Cert.frame_Kernel (hKernel := Cert.Kernel.Gen.facts) (hPre_finite_inputs := Cert.Pre_finite_inputs.Gen.facts) :=
  fun m ρ _ => Cert.Kernel.Run.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Run.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the argument, whose entries the precondition makes real numbers, both programs end at
    the mean charge per pair of the reshaped argument. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Penalty.mean (Cert.Penalty.rows (shapeCast Cert.KernelIdeal.S4096x3
      (m ((c.tc : Thread Cert.KernelIdeal.nD Cert.KernelIdeal.τ).loc Cert.KernelIdeal.main_arg0)) Cert.KernelIdeal.Facts₀.shapeCasts_S12288_S4096x3)), ?_, ?_⟩
  · exact (θ_run (Cert.KernelIdeal.defs (F := Ideal)) _ _).mono
      (fun _ h c => ⟨(h c).1.trans (Cert.KernelIdeal.Result.result_eq m c (Cert.Finite.entries_real _ (hpre c))),
        (h c).2.trans (Cert.KernelIdeal.Run.fin_arg0 m c)⟩)
      (Cert.KernelIdeal.Run.run_main m ρ)
  · refine (θ_run Cert.ReferenceIdeal.defs _ _).mono (fun _ h c => ⟨(h c).1.trans ?_, (h c).2⟩)
      (Cert.ReferenceIdeal.Value.run (F := Ideal) m' ρ')
    refine (Cert.RefMean.res_eq m' c).trans ?_
    rw [hagree c]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
